-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) (main_arg1 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  main_v8
-- ==== Kernel.lean ====
abbrev S2048x4096 : Shape := ⟨2, ![2048, 4096]⟩
abbrev S2x3x8x128 : Shape := ⟨4, ![2, 3, 8, 128]⟩
abbrev S128x4096 : Shape := ⟨2, ![128, 4096]⟩
abbrev S1x3x8x128 : Shape := ⟨4, ![1, 3, 8, 128]⟩
abbrev S3x8x4096 : Shape := ⟨3, ![3, 8, 4096]⟩
abbrev S16x8x4096 : Shape := ⟨3, ![16, 8, 4096]⟩
abbrev S8x4096 : Shape := ⟨2, ![8, 4096]⟩
abbrev S1x8x4096 : Shape := ⟨3, ![1, 8, 4096]⟩
abbrev S1 : Shape := ⟨1, ![1]⟩
abbrev S1x1x1 : Shape := ⟨3, ![1, 1, 1]⟩
abbrev S8x128 : Shape := ⟨2, ![8, 128]⟩
abbrev S1x1x8x128 : Shape := ⟨4, ![1, 1, 8, 128]⟩
abbrev S2x3x1x1 : Shape := ⟨4, ![2, 3, 1, 1]⟩
abbrev S2x3 : Shape := ⟨2, ![2, 3]⟩
abbrev S_ : Shape := ⟨0, ![]⟩
abbrev S3 : Shape := ⟨1, ![3]⟩

abbrev nBuf : Space → Nat
  | .hbm => 22
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2x3x8x128, .f32⟩
  | .hbm, ⟨3, _⟩ => ⟨S2x3x1x1, .f32⟩
  | .hbm, ⟨4, _⟩ => ⟨S2x3, .f32⟩
  | .hbm, ⟨5, _⟩ => ⟨S_, .f32⟩
  | .hbm, ⟨6, _⟩ => ⟨S3, .f32⟩
  | .hbm, ⟨7, _⟩ => ⟨S1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x3x8x128, .f32⟩
  | .local _ .vmem, ⟨5, _⟩ => ⟨S1x3x8x128, .f32⟩
  | .local _ .vmem, ⟨6, _⟩ => ⟨S3x8x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x4096_S128x4096_0_0 : ∀ a, (![0, 0] : Fin 2 → Nat) a + S128x4096.size a ≤ S128x4096.size a
  h_S128x4096 : 0 < S128x4096.numel
  shapeCasts_S128x4096_S16x8x4096 : S128x4096.ShapeCasts S16x8x4096
  reduces_S16x8x4096_S8x4096 : S16x8x4096.Reduces [0] S8x4096
  inb_S3x8x4096_S1x8x4096_0_0_0 : ∀ a, (![0, 0, 0] : Fin 3 → Nat) a + S1x8x4096.size a ≤ S3x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  inb_S3x8x4096_S1x8x4096_1_0_0 : ∀ a, (![1, 0, 0] : Fin 3 → Nat) a + S1x8x4096.size a ≤ S3x8x4096.size a
  inb_S3x8x4096_S1x8x4096_2_0_0 : ∀ a, (![2, 0, 0] : Fin 3 → Nat) a + S1x8x4096.size a ≤ S3x8x4096.size a
  reduces_S1x8x4096_S1 : S1x8x4096.Reduces [1, 2] S1
  shapeCasts_S1_S1x1x1 : S1.ShapeCasts S1x1x1
  inpos_S1x1x1_p0_0_0 : ∀ a, (![0, 0, 0] : Fin 3 → Nat) a < S1x1x1.size a
  inb_S1x3x8x128_S1x1x8x128_0_0_0_0 : ∀ a, (![0, 0, 0, 0] : Fin 4 → Nat) a + S1x1x8x128.size a ≤ S1x3x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x3x8x128_S1x1x8x128_0_1_0_0 : ∀ a, (![0, 1, 0, 0] : Fin 4 → Nat) a + S1x1x8x128.size a ≤ S1x3x8x128.size a
  inb_S1x3x8x128_S1x1x8x128_0_2_0_0 : ∀ a, (![0, 2, 0, 0] : Fin 4 → Nat) a + S1x1x8x128.size a ≤ S1x3x8x128.size a
  slices_S2x3x8x128_S2x3x1x1_0_0_0_0 : S2x3x8x128.Slices ![0, 0, 0, 0] S2x3x1x1
  shapeCasts_S2x3x1x1_S2x3 : S2x3x1x1.ShapeCasts S2x3
  reducesTo_S2x3_S3_d0 : S2x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S2048x4096.size a
  hwx0_0 : ∀ i : grid0.Coords, EltTy.bits .f32 = 32 ∨ (Rect.block (s := S2048x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S2048x4096.size a
  hwx0_1 : ∀ i : grid0.Coords, EltTy.bits .f32 = 32 ∨ (Rect.block (s := S2048x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S2x3x8x128.size a
  hwx0_2 : ∀ i : grid0.Coords, EltTy.bits .f32 = 32 ∨ (Rect.block (s := S2x3x8x128) S1x3x8x128.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S2048x4096 : Shape := ⟨2, ![2048, 4096]⟩
abbrev S8388608 : Shape := ⟨1, ![8388608]⟩
abbrev S65536x128 : Shape := ⟨2, ![65536, 128]⟩
abbrev S2x3x8x128 : Shape := ⟨4, ![2, 3, 8, 128]⟩
abbrev S2048x128 : Shape := ⟨2, ![2048, 128]⟩
abbrev S1x3x8x128 : Shape := ⟨4, ![1, 3, 8, 128]⟩
abbrev S1x2048x128 : Shape := ⟨3, ![1, 2048, 128]⟩
abbrev S1 : Shape := ⟨1, ![1]⟩
abbrev S1x1x1 : Shape := ⟨3, ![1, 1, 1]⟩
abbrev S8x128 : Shape := ⟨2, ![8, 128]⟩
abbrev S1x1x8x128 : Shape := ⟨4, ![1, 1, 8, 128]⟩
abbrev S2x3x1x1 : Shape := ⟨4, ![2, 3, 1, 1]⟩
abbrev S2x3 : Shape := ⟨2, ![2, 3]⟩
abbrev S_ : Shape := ⟨0, ![]⟩
abbrev S3 : Shape := ⟨1, ![3]⟩

abbrev nBuf : Space → Nat
  | .hbm => 26
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S8388608, .f32⟩
  | .hbm, ⟨3, _⟩ => ⟨S8388608, .f32⟩
  | .hbm, ⟨4, _⟩ => ⟨S65536x128, .f32⟩
  | .hbm, ⟨5, _⟩ => ⟨S65536x128, .f32⟩
  | .hbm, ⟨6, _⟩ => ⟨S2x3x8x128, .f32⟩
  | .hbm, ⟨7, _⟩ => ⟨S2x3x1x1, .f32⟩
  | .hbm, ⟨8, _⟩ => ⟨S2x3, .f32⟩
  | .hbm, ⟨9, _⟩ => ⟨S_, .f32⟩
  | .hbm, ⟨10, _⟩ => ⟨S3, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x3x8x128, .f32⟩
  | .local _ .vmem, ⟨5, _⟩ => ⟨S1x3x8x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2048x4096_S8388608 : S2048x4096.ShapeCasts S8388608
  shapeCasts_S8388608_S65536x128 : S8388608.ShapeCasts S65536x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x128_S1x2048x128 : S2048x128.ShapeCasts S1x2048x128
  reduces_S1x2048x128_S1 : S1x2048x128.Reduces [1, 2] S1
  shapeCasts_S1_S1x1x1 : S1.ShapeCasts S1x1x1
  inpos_S1x1x1_p0_0_0 : ∀ a, (![0, 0, 0] : Fin 3 → Nat) a < S1x1x1.size a
  inb_S1x3x8x128_S1x1x8x128_0_0_0_0 : ∀ a, (![0, 0, 0, 0] : Fin 4 → Nat) a + S1x1x8x128.size a ≤ S1x3x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x3x8x128_S1x1x8x128_0_1_0_0 : ∀ a, (![0, 1, 0, 0] : Fin 4 → Nat) a + S1x1x8x128.size a ≤ S1x3x8x128.size a
  inb_S1x3x8x128_S1x1x8x128_0_2_0_0 : ∀ a, (![0, 2, 0, 0] : Fin 4 → Nat) a + S1x1x8x128.size a ≤ S1x3x8x128.size a
  slices_S2x3x8x128_S2x3x1x1_0_0_0_0 : S2x3x8x128.Slices ![0, 0, 0, 0] S2x3x1x1
  shapeCasts_S2x3x1x1_S2x3 : S2x3x1x1.ShapeCasts S2x3
  reducesTo_S2x3_S3_d0 : S2x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S2x3x8x128.size a
  hwx0_2 : ∀ i : grid0.Coords, EltTy.bits .f32 = 32 ∨ (Rect.block (s := S2x3x8x128) S1x3x8x128.size (cc0_transform_2 i) (hinb0_2 i)).WholeWords (EltTy.packing .f32)

variable [Facts₀]

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.KbShared.lean ====
/-
  The accumulating tile kernel, step by step: what every run of its body is stated over.

  The grid is 2 cores × 8 steps; grid point `t` is step `t mod 8` of core `t / 8`. The body branches three times on
  the step: at step 0 it STARTS the three running sums held in its scratch (a [3, 8, 4096] buffer), at every later
  step it ADDS the tile's three partial sums to them, and at step 7 it also reduces each running sum to one number
  and writes that number, broadcast over an [8, 128] slab, into the output block. So a point is in exactly one of
  three cases — first (step 0), middle (steps 1–6), last (step 7) — and this file decides, over the sixteen points,
  which case each point is in and where the output window is idle.
-/
import proofs.«181647_g2000509514383055_pallasbulk_1306_5_alg».proof.Proof.Gen.Kernel.Frame
import proofs.«181647_g2000509514383055_pallasbulk_1306_5_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions, as functions of the grid point -/

/-- "This is step 0": the condition of the branch that starts the running sums. -/
abbrev isFirst (i : grid0.Coords) : Prop :=
  (Scalar.cmpi .ne (Scalar.extui (Scalar.cmpi .eq (BitVec.ofNat 32 (i 1).val) 0#32)) 0#32) = 1#1
/-- It holds exactly at the points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- "This is a later step" (signed `step > 0`): the condition of the branch that adds to the running sums. -/
abbrev isLater (i : grid0.Coords) : Prop :=
  (Scalar.cmpi .ne (Scalar.extui (Scalar.cmpi .sgt (BitVec.ofNat 32 (i 1).val) 0#32)) 0#32) = 1#1
/-- It holds exactly at the points ≢ 0 (mod 8). -/
theorem isLater_iff : ∀ t : Fin cfg0.N, isLater (grid0.coords t) ↔ ¬ t.val % 8 = 0 :=
  (by decide +kernel : ∀ t : Fin grid0.N, isLater (grid0.coords t) ↔ ¬ t.val % 8 = 0)

/-- "This is step 7": the condition of the branch that writes the output block. -/
abbrev isLast (i : grid0.Coords) : Prop := k0_cond3 i = 1#1
/-- It holds exactly at the points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The two input windows are never idle. -/
theorem live0 : ∀ t : Fin cfg0.N, cfg0.idle 0 (grid0.coords t) = false := by decide +kernel
theorem live1 : ∀ t : Fin cfg0.N, cfg0.idle 1 (grid0.coords t) = false := by decide +kernel
/-- Before step 7 the body stores nothing into the output block: the window is idle there, -/
theorem idle2_of_not_last : ∀ t : Fin cfg0.N, ¬isLast (grid0.coords t) → cfg0.idle 2 (grid0.coords t) = true := by decide +kernel
/-- and the pipeline does not write the block back there. -/
theorem noFlush2_of_not_last : ∀ t : Fin cfg0.N, ¬isLast (grid0.coords t) → (cfg0.win 2).flush t = false := by decide +kernel
/-- At step 7 the window is live. -/
theorem live2_of_last : ∀ t : Fin cfg0.N, isLast (grid0.coords t) → cfg0.idle 2 (grid0.coords t) = false := by decide +kernel

/-! ## The buffers the body is called with -/

/-- One staging buffer of the output window, through which the block's contents are stated. -/
abbrev outView : View sig .tc .vmem S1x3x8x128 .f32 := (Memref.whole cc0_stg2_0 : Memref sig .tc .vmem S1x3x8x128 .f32).view
/-- Each window's current staging buffer at point `t`, and that it is a whole buffer. -/
abbrev stg0 (t : Fin cfg0.N) : Memref sig .tc .vmem S128x4096 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S128x4096 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S1x3x8x128 .f32 := win0_2.stage (cfg0.slots t 2)
abbrev stg2_whole (t : Fin cfg0.N) : (stg2 t).IsWhole := hstage0_2 ((cfg0.slots t 2).cast nbuf0_2)
/-- The scratch holding the three running sums: a whole scoped buffer of the kernel's own. -/
abbrev accM : Memref sig .tc .vmem S3x8x4096 .f32 := Memref.whole cc0_scratch0
/-- The same as a view: what it holds is stated through it. -/
abbrev accV : View sig .tc .vmem S3x8x4096 .f32 := accM.view

/-- What the launch hands the region besides the windows: the scratch at some contents and the generator register
    at some state. -/
theorem PhiA_eq (c : Dev nD) :
    (Pipeline.ΦA spec0 c : sProp 𝕄)
      = iprop((∃ d, owns (c : Thread nD τ) accM fullShare d) ∗ (∃ r, prngReg c r)) := by
  unfold Pipeline.ΦA; rw [scopedRest0_eq]; simp only [accM, owns_whole]; try rfl

end Cert.Kernel.Body

end
-- ==== Proof.KbRunFirst.lean ====
/-
  The body at a FIRST step (step 0 of a core): it loads the two input tiles, computes the tile's three partial
  sums (of squared differences, of targets, of squared targets — each a [128, 4096] tile folded over its sixteen
  row groups to [8, 4096]), and stores them into the three slabs of the scratch, whatever the scratch held before
  (each slab is also loaded first, a value nothing uses). The output block is not touched.
-/
import proofs.«181647_g2000509514383055_pallasbulk_1306_5_alg».proof.Proof.KbShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the scratch at a first step (the output block gets none), with the proof
    that on whole buffers — the inputs at their tiles `x0`, `x1`, the output block at contents `xi2` it hands back
    untouched, the scratch at anything — the body runs to a continuation holding the inputs as they were and the
    scratch with those pieces written. The pieces are found by running the body. -/
noncomputable def runFirst (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : isFirst i) (h2 : ¬isLater i) (h3 : ¬isLast i)
    (x0 : Vec F S128x4096 .f32) (x1 : Vec F S128x4096 .f32) :
    Σ' (L2 : List (View.Piece (Elt F) S1x3x8x128 .f32)), { LS : List (View.Piece (Elt F) S3x8x4096 .f32) //
      ∀ (xi2 : Vec F S1x3x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nmse_tile_kernel i arg2 harg2 arg3 harg3 arg4 harg4 arg5 harg5) K } := by
  refine ⟨[], ?_, fun xi2 E K => ?run⟩
  case run =>
    simp only [cc0__nmse_tile_kernel_eq_skeleton]; unfold cc0__nmse_tile_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.KbRunMid.lean ====
/-
  The body at a MIDDLE step (steps 1–6 of a core): it loads the two input tiles, computes the tile's three partial
  sums, and replaces each slab of the scratch by that slab plus the matching partial sum. The output block is not
  touched.
-/
import proofs.«181647_g2000509514383055_pallasbulk_1306_5_alg».proof.Proof.KbRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the scratch at a middle step (the output block gets none), with the proof
    that on whole buffers — the inputs at their tiles `x0`, `x1`, the output block at contents `xi2` it hands back
    untouched, the scratch at the running sums `xs` the step before left — the body runs to a continuation holding
    the inputs as they were and the scratch with those pieces written. -/
noncomputable def runMid (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : ¬isLast i)
    (x0 : Vec F S128x4096 .f32) (x1 : Vec F S128x4096 .f32) (xs : Vec F S3x8x4096 .f32) :
    Σ' (L2 : List (View.Piece (Elt F) S1x3x8x128 .f32)), { LS : List (View.Piece (Elt F) S3x8x4096 .f32) //
      ∀ (xi2 : Vec F S1x3x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nmse_tile_kernel i arg2 harg2 arg3 harg3 arg4 harg4 arg5 harg5) K } := by
  refine ⟨[], ?_, fun xi2 E K => ?run⟩
  case run =>
    simp only [cc0__nmse_tile_kernel_eq_skeleton]; unfold cc0__nmse_tile_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Body

end
-- ==== Proof.KbRunLast.lean ====
/-
  The body at a LAST step (step 7 of a core): as at a middle step it adds the tile's three partial sums to the
  three slabs of the scratch; then it reduces each slab to one number (the sum of its 8 × 4096 entries) and stores
  that number, broadcast over [8, 128], into the matching slab of the output block, covering the block.
-/
import proofs.«181647_g2000509514383055_pallasbulk_1306_5_alg».proof.Proof.KbRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output block and in the scratch at a last step, with the proof that
    on whole buffers — the inputs at their tiles `x0`, `x1`, the output block at anything, the scratch at the
    running sums `xs` the step before left — the body runs to a continuation holding the inputs as they were and
    the output block and the scratch with those pieces written. -/
noncomputable def runLast (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : isLast i)
    (x0 : Vec F S128x4096 .f32) (x1 : Vec F S128x4096 .f32) (xs : Vec F S3x8x4096 .f32) :
    Σ' (L2 : List (View.Piece (Elt F) S1x3x8x128 .f32)), { LS : List (View.Piece (Elt F) S3x8x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__nmse_tile_kernel i arg2 harg2 arg3 harg3 arg4 harg4 arg5 harg5) K } := by
  refine ⟨?_, ?_, fun E K => ?run⟩
  case run =>
    simp only [cc0__nmse_tile_kernel_eq_skeleton]; unfold cc0__nmse_tile_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Body

end
-- ==== Proof.KbFrame.lean ====
/-
  The frame of the accumulating tile kernel: every weakly fair execution of the program terminates, nothing faults,
  and the two argument arrays end unchanged — with, along the way, what the scratch and the output block hold after
  every grid point.

  After the body at point `t` the scratch holds the core's three running sums up to step `t mod 8`: started at
  step 0 from the tile's partial sums alone, and at each later step the step before's contents plus the tile's
  partial sums. The output block is written only at step 7, from the running sums just completed; at the other
  steps the window is idle and is not written back. The pipeline's invariant between points carries the scratch at
  exactly those contents (before the very first point: at anything), which is what lets the next step's body read
  them. Each case's contents are stated as the body's own stores read back (the pieces found when the body was
  run), so nothing the body computes is restated here.
-/
import proofs.«181647_g2000509514383055_pallasbulk_1306_5_alg».proof.Proof.KbRunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The output block's contents where the window is idle: a placeholder nothing consults (the block is neither
    written back there nor read at the next point). -/
def idleOut : Vec F S1x3x8x128 .f32 := outView.read (Elt F) outView.junk

/-- A first step's three stores, one per slab, cover the scratch. -/
theorem accCover_first (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : isFirst i) (h2 : ¬isLater i) (h3 : ¬isLast i)
    (x0 : Vec F S128x4096 .f32) (x1 : Vec F S128x4096 .f32) (y : S3x8x4096.Idx) :
    ∃ pc ∈ (runFirst c i arg2 harg2 arg3 harg3 arg4 harg4 arg5 harg5 h1 h2 h3 x0 x1).2.1, y ∈ pc.1.set :=
  View.cover_of_tiledL (runFirst c i arg2 harg2 arg3 harg3 arg4 harg4 arg5 harg5 h1 h2 h3 x0 x1).2.1 S1x8x4096.size (by sl_kernel_rfl) y

/-- What a first step leaves in the scratch: its stores read back. -/
def accFirst (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : isFirst i) (h2 : ¬isLater i) (h3 : ¬isLast i)
    (x0 : Vec F S128x4096 .f32) (x1 : Vec F S128x4096 .f32) : Vec F S3x8x4096 .f32 :=
  accV.read (Elt F) (accV.writes (Elt F) accV.junk (runFirst c i arg2 harg2 arg3 harg3 arg4 harg4 arg5 harg5 h1 h2 h3 x0 x1).2.1)

/-- A middle step's three stores cover the scratch. -/
theorem accCover_mid (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : ¬isLast i)
    (x0 : Vec F S128x4096 .f32) (x1 : Vec F S128x4096 .f32) (xs : Vec F S3x8x4096 .f32) (y : S3x8x4096.Idx) :
    ∃ pc ∈ (runMid c i arg2 harg2 arg3 harg3 arg4 harg4 arg5 harg5 h1 h2 h3 x0 x1 xs).2.1, y ∈ pc.1.set :=
  View.cover_of_tiledL (runMid c i arg2 harg2 arg3 harg3 arg4 harg4 arg5 harg5 h1 h2 h3 x0 x1 xs).2.1 S1x8x4096.size (by sl_kernel_rfl) y

/-- What a middle step leaves in the scratch. -/
def accMid (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : ¬isLast i)
    (x0 : Vec F S128x4096 .f32) (x1 : Vec F S128x4096 .f32) (xs : Vec F S3x8x4096 .f32) : Vec F S3x8x4096 .f32 :=
  accV.read (Elt F) (accV.writes (Elt F) accV.junk (runMid c i arg2 harg2 arg3 harg3 arg4 harg4 arg5 harg5 h1 h2 h3 x0 x1 xs).2.1)

/-- A last step's three stores into the scratch cover it, -/
theorem accCover_last (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : isLast i)
    (x0 : Vec F S128x4096 .f32) (x1 : Vec F S128x4096 .f32) (xs : Vec F S3x8x4096 .f32) (y : S3x8x4096.Idx) :
    ∃ pc ∈ (runLast c i arg2 harg2 arg3 harg3 arg4 harg4 arg5 harg5 h1 h2 h3 x0 x1 xs).2.1, y ∈ pc.1.set :=
  View.cover_of_tiledL (runLast c i arg2 harg2 arg3 harg3 arg4 harg4 arg5 harg5 h1 h2 h3 x0 x1 xs).2.1 S1x8x4096.size (by sl_kernel_rfl) y

/-- and its three stores into the output block, one per slab, cover the block. -/
theorem outCover_last (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : isLast i)
    (x0 : Vec F S128x4096 .f32) (x1 : Vec F S128x4096 .f32) (xs : Vec F S3x8x4096 .f32) (y : S1x3x8x128.Idx) :
    ∃ pc ∈ (runLast c i arg2 harg2 arg3 harg3 arg4 harg4 arg5 harg5 h1 h2 h3 x0 x1 xs).1, y ∈ pc.1.set :=
  View.cover_of_tiledL (runLast c i arg2 harg2 arg3 harg3 arg4 harg4 arg5 harg5 h1 h2 h3 x0 x1 xs).1 S1x1x8x128.size (by sl_kernel_rfl) y

/-- What a last step leaves in the scratch, -/
def accLast (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : isLast i)
    (x0 : Vec F S128x4096 .f32) (x1 : Vec F S128x4096 .f32) (xs : Vec F S3x8x4096 .f32) : Vec F S3x8x4096 .f32 :=
  accV.read (Elt F) (accV.writes (Elt F) accV.junk (runLast c i arg2 harg2 arg3 harg3 arg4 harg4 arg5 harg5 h1 h2 h3 x0 x1 xs).2.1)

/-- and in the output block. -/
def outLast (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S1x3x8x128 .f32) (harg4 : arg4.IsWhole) (arg5 : Memref sig .tc .vmem S3x8x4096 .f32) (harg5 : arg5.IsWhole) (h1 : ¬isFirst i) (h2 : isLater i) (h3 : isLast i)
    (x0 : Vec F S128x4096 .f32) (x1 : Vec F S128x4096 .f32) (xs : Vec F S3x8x4096 .f32) : Vec F S1x3x8x128 .f32 :=
  outView.read (Elt F) (outView.writes (Elt F) outView.junk (runLast c i arg2 harg2 arg3 harg3 arg4 harg4 arg5 harg5 h1 h2 h3 x0 x1 xs).1)

/-! ## The same at a grid point, on the buffers and tiles the pipeline calls the body with -/

theorem first_c1 (t : Fin cfg0.N) (h0 : t.val % 8 = 0) : isFirst (grid0.coords t) := (isFirst_iff t).mpr h0
theorem first_c2 (t : Fin cfg0.N) (h0 : t.val % 8 = 0) : ¬isLater (grid0.coords t) := fun h => (isLater_iff t).mp h h0
theorem first_c3 (t : Fin cfg0.N) (h0 : t.val % 8 = 0) : ¬isLast (grid0.coords t) := fun h => by
  have := (isLast_iff t).mp h; omega
theorem later_c1 (t : Fin cfg0.N) (h0 : ¬t.val % 8 = 0) : ¬isFirst (grid0.coords t) := fun h => h0 ((isFirst_iff t).mp h)
theorem later_c2 (t : Fin cfg0.N) (h0 : ¬t.val % 8 = 0) : isLater (grid0.coords t) := (isLater_iff t).mpr h0
theorem mid_c3 (t : Fin cfg0.N) (h7 : ¬t.val % 8 = 7) : ¬isLast (grid0.coords t) := fun h => h7 ((isLast_iff t).mp h)
theorem last_c3 (t : Fin cfg0.N) (h7 : t.val % 8 = 7) : isLast (grid0.coords t) := (isLast_iff t).mpr h7

/-- The scratch after a first step at point `t`. -/
abbrev firstAt (c : Dev nD) (t : Fin cfg0.N) (h0 : t.val % 8 = 0) : Vec F S3x8x4096 .f32 :=
  accFirst c (grid0.coords t) (stg0 t) (stg0_whole t) (stg1 t) (stg1_whole t) (stg2 t) (stg2_whole t) accM (Memref.isWhole_whole _) (first_c1 t h0) (first_c2 t h0) (first_c3 t h0) (iblk m c 0 t) (iblk m c 1 t)
/-- The scratch after a middle step at point `t`, from what the point before left. -/
abbrev midAt (c : Dev nD) (t : Fin cfg0.N) (h0 : ¬t.val % 8 = 0) (h7 : ¬t.val % 8 = 7) (xs : Vec F S3x8x4096 .f32) : Vec F S3x8x4096 .f32 :=
  accMid c (grid0.coords t) (stg0 t) (stg0_whole t) (stg1 t) (stg1_whole t) (stg2 t) (stg2_whole t) accM (Memref.isWhole_whole _) (later_c1 t h0) (later_c2 t h0) (mid_c3 t h7) (iblk m c 0 t) (iblk m c 1 t) xs
/-- The scratch after a last step at point `t`, -/
abbrev lastAccAt (c : Dev nD) (t : Fin cfg0.N) (h0 : ¬t.val % 8 = 0) (h7 : t.val % 8 = 7) (xs : Vec F S3x8x4096 .f32) : Vec F S3x8x4096 .f32 :=
  accLast c (grid0.coords t) (stg0 t) (stg0_whole t) (stg1 t) (stg1_whole t) (stg2 t) (stg2_whole t) accM (Memref.isWhole_whole _) (later_c1 t h0) (later_c2 t h0) (last_c3 t h7) (iblk m c 0 t) (iblk m c 1 t) xs
/-- and the output block. -/
abbrev lastOutAt (c : Dev nD) (t : Fin cfg0.N) (h0 : ¬t.val % 8 = 0) (h7 : t.val % 8 = 7) (xs : Vec F S3x8x4096 .f32) : Vec F S1x3x8x128 .f32 :=
  outLast c (grid0.coords t) (stg0 t) (stg0_whole t) (stg1 t) (stg1_whole t) (stg2 t) (stg2_whole t) accM (Memref.isWhole_whole _) (later_c1 t h0) (later_c2 t h0) (last_c3 t h7) (iblk m c 0 t) (iblk m c 1 t) xs

/-! ## What the output block and the scratch hold after each point -/

/-- After the body at position `n`: the output block's staging buffer and the scratch, by recursion on the point —
    a first step starts the scratch afresh, a later one continues from what the point before left. -/
def stateAt (c : Dev nD) : (n : ℕ) → n < cfg0.N → Vec F S1x3x8x128 .f32 × Vec F S3x8x4096 .f32
  | 0, hn => (idleOut, firstAt m c ⟨0, hn⟩ (Nat.zero_mod _))
  | n + 1, hn =>
    if h0 : (n + 1) % 8 = 0 then
      (idleOut, firstAt m c ⟨n + 1, hn⟩ h0)
    else
      if h7 : (n + 1) % 8 = 7 then
        (lastOutAt m c ⟨n + 1, hn⟩ h0 h7 (stateAt c n (Nat.lt_of_succ_lt hn)).2,
          lastAccAt m c ⟨n + 1, hn⟩ h0 h7 (stateAt c n (Nat.lt_of_succ_lt hn)).2)
      else
        (idleOut, midAt m c ⟨n + 1, hn⟩ h0 h7 (stateAt c n (Nat.lt_of_succ_lt hn)).2)

theorem prev_lt (t : Fin cfg0.N) : t.val - 1 < cfg0.N := Nat.lt_of_le_of_lt (Nat.sub_le _ _) t.isLt

theorem stateAt_first (c : Dev nD) (t : Fin cfg0.N) (h0 : t.val % 8 = 0) :
    stateAt m c t.val t.isLt = (idleOut, firstAt m c t h0) := by
  obtain ⟨n, hn⟩ := t
  cases n with
  | zero => exact rfl
  | succ n => exact (dif_pos h0).trans rfl

theorem stateAt_mid (c : Dev nD) (t : Fin cfg0.N) (h0 : ¬t.val % 8 = 0) (h7 : ¬t.val % 8 = 7) :
    stateAt m c t.val t.isLt = (idleOut, midAt m c t h0 h7 (stateAt m c (t.val - 1) (prev_lt t)).2) := by
  obtain ⟨n, hn⟩ := t
  cases n with
  | zero => exact absurd (Nat.zero_mod _) h0
  | succ n => exact (dif_neg h0).trans ((dif_neg h7).trans rfl)

theorem stateAt_last (c : Dev nD) (t : Fin cfg0.N) (h0 : ¬t.val % 8 = 0) (h7 : t.val % 8 = 7) :
    stateAt m c t.val t.isLt = (lastOutAt m c t h0 h7 (stateAt m c (t.val - 1) (prev_lt t)).2,
      lastAccAt m c t h0 h7 (stateAt m c (t.val - 1) (prev_lt t)).2) := by
  obtain ⟨n, hn⟩ := t
  cases n with
  | zero => exact absurd (Nat.zero_mod _) h0
  | succ n => exact (dif_neg h0).trans ((dif_pos h7).trans rfl)

/-! ## The invariant between points -/

/-- Before position `n`: before the first point what the launch hands over (the scratch at anything); afterwards
    the scratch at what the point before left, and the generator register at some state. -/
def PhiS (c : Dev nD) : (n : ℕ) → n ≤ cfg0.N → sProp 𝕄
  | 0, _ => Pipeline.ΦA spec0 c
  | n + 1, hn => iprop(owns (c : Thread nD τ) accM fullShare ((stateAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) accM fullShare ((stateAt m c n hn).2) ∗ (∃ r, prngReg c r)) := rfl

theorem PhiS_pos (c : Dev nD) (n : ℕ) (h : n ≤ cfg0.N) (hz : n ≠ 0) :
    PhiS m c n h = iprop(owns (c : Thread nD τ) accM fullShare ((stateAt m c (n - 1) (by omega)).2) ∗ (∃ r, prngReg c r)) := by
  cases n with
  | zero => exact absurd rfl hz
  | succ n => rfl

/-! ## The pipeline's proof data -/

/-- On core `c`: the arrays as the region finds them; after the body at point `t` each input's buffer at its tile
    and the output block's at `stateAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stateAt m c t.val t.isLt).1 := by dsimp only [dats]

/-- Each input's current staging buffer holds its tile at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their tiles; the step decides the case; the invariant hands the
    body the scratch at what the point before left (at anything before the very first point, and a first step needs
    nothing of it anyway) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  by_cases h0 : t.val % 8 = 0
  · rw [Dat.leavesExact_idle (dats m 0 c) 2 t (idle2_of_not_last t (first_c3 t h0)) (noFlush2_of_not_last t (first_c3 t h0))]
    rw [stateAt_first m c t h0]
    unfold firstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩⟩
      iapply ((runFirst c (grid0.coords t) _ _ _ _ _ _ _ _ (first_c1 t h0) (first_c2 t h0) (first_c3 t h0) (iblk m c 0 t) (iblk m c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS, Hg⟩, Ho, ⟨%d0, H0⟩, ⟨%d1, H1⟩, ⟨%d2, H2⟩⟩
      iapply ((runFirst c (grid0.coords t) _ _ _ _ _ _ _ _ (first_c1 t h0) (first_c2 t h0) (first_c3 t h0) (iblk m c 0 t) (iblk m c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h7 : t.val % 8 = 7
    · rw [show (dats m 0 c).leavesExact 2 t = owns (c : Thread nD τ) (stg2 t) fullShare ((dats m 0 c).after 2 t) from by
        unfold Dat.leavesExact; rw [live2_of_last t (last_c3 t h7)], after2]
      rw [stateAt_last m c t h0 h7]
      unfold lastOutAt lastAccAt outLast accLast; (try dsimp only)
      rw [PhiS_castSucc m c t, PhiS_pos m c _ _ hz]
      iintro ⟨⟨HS, Hg⟩, Ho, ⟨%d0, H0⟩, ⟨%d1, H1⟩, ⟨%d2, H2⟩⟩
      iapply ((runLast c (grid0.coords t) _ _ _ _ _ _ _ _ (later_c1 t h0) (later_c2 t h0) (last_c3 t h7) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (outCover_last c _ _ _ _ _ _ _ _ _ _ _ _ _ _ _)
    · rw [Dat.leavesExact_idle (dats m 0 c) 2 t (idle2_of_not_last t (mid_c3 t h7)) (noFlush2_of_not_last t (mid_c3 t h7))]
      rw [stateAt_mid m c t h0 h7]
      unfold midAt accMid; (try dsimp only)
      rw [PhiS_castSucc m c t, PhiS_pos m c _ _ hz]
      iintro ⟨⟨HS, Hg⟩, Ho, ⟨%d0, H0⟩, ⟨%d1, H1⟩, ⟨%d2, H2⟩⟩
      iapply ((runMid c (grid0.coords t) _ _ _ _ _ _ _ _ (later_c1 t h0) (later_c2 t h0) (mid_c3 t h7) (iblk m c 0 t) (iblk m c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _)
        iexact Hg
      isplitl [Ho]; · iexact Ho
      isplitl [H0]; · iexact H0
      isplitl [H1]; · iexact H1
      iexists _; iexact H2

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the same back: the scratch's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

/-! ## The run and the frame -/

set_option backward.isDefEq.respectTransparency.types false in
/-- Every weakly fair execution of the program terminates, and every final state has each array of the pipeline
    at what the pipeline library computes from the proof data, and every other buffer as the host operations after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.RefPieces.lean ====
/-
  What one grid point of the reference leaves behind, read back from the stores its run found.

  The three accumulators are whole [2048, 128] buffers, loaded and stored through the whole-buffer rectangle, so after
  a point each holds the payload of its last store. At a core's first point that store follows the reset, so its
  payload is the update applied to the zero block; at every later point it is the update applied to what the point
  before left. At a core's last point the output block [1, 3, 8, 128] is written as three [1, 1, 8, 128] slabs, slab k
  holding the total of accumulator k (as just updated) at every position.
-/
import proofs.«181647_g2000509514383055_pallasbulk_1306_5_alg».proof.Proof.Gen.ReferenceIdeal.Frame
import Idealize.ShloMosaic.Lib.Pipeline.Value
import Idealize.ShloMosaic.Lib.Tactic

set_option maxRecDepth 16384

noncomputable section

open scoped BigOperators

namespace Cert.ReferenceIdeal.RefValue

open Idealize.ShloMosaic Idealize.ShloMosaic.TcCoe Idealize.ShloMosaic.Tactic Idealize.SL.Sem
open Idealize.ShloMosaic.Pipeline (Dat)
open Cert.ReferenceIdeal Cert.ReferenceIdeal.Gen

variable {F : FTy → Type} [FloatOps F]

theorem hz : (![0, 0] : Fin 2 → Nat) = fun _ => 0 := funext fun a => by fin_cases a <;> rfl

/-- At a core's first point accumulator 0 is reset and then updated: it ends at the update of the zero block. -/
theorem first_acc0 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i) (x0 x1 : Vec F S2048x128 .f32) :
    sout0_A_0 c i a2 h2 a3 h3 a4 h4 a5 h5 a6 h6 a7 h7 hc0 hc1 x0 x1 = k0_pay5 x0 x1 (k0_pay1 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x128) hz]

/-- At a core's first point accumulator 1 is reset and then updated: it ends at the update of the zero block. -/
theorem first_acc1 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i) (x0 x1 : Vec F S2048x128 .f32) :
    sout0_A_1 c i a2 h2 a3 h3 a4 h4 a5 h5 a6 h6 a7 h7 hc0 hc1 x0 x1 = k0_pay6 x1 (k0_pay2 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x128) hz]

/-- At a core's first point accumulator 2 is reset and then updated: it ends at the update of the zero block. -/
theorem first_acc2 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : cond0_0 i) (hc1 : ¬cond0_1 i) (x0 x1 : Vec F S2048x128 .f32) :
    sout0_A_2 c i a2 h2 a3 h3 a4 h4 a5 h5 a6 h6 a7 h7 hc0 hc1 x0 x1 = k0_pay7 x1 (k0_pay3 (F := F)) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x128) hz]

/-- At a middle point accumulator 0 ends at the update of what the point before left. -/
theorem mid_acc0 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i) (x0 x1 xs0 xs1 xs2 : Vec F S2048x128 .f32) :
    sout0_B_0 c i a2 h2 a3 h3 a4 h4 a5 h5 a6 h6 a7 h7 hc0 hc1 x0 x1 xs0 xs1 xs2 = k0_pay5 x0 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  sl_unfold_words
  rw [View.canon_unit_zero (S := S2048x128) hz]
  simp only [View.readAt_eq_ld, h2.read_unread, h3.read_unread, h5.read_unread, h6.read_unread, h7.read_unread, View.ld_unit_zero (S := S2048x128) hz]

/-- At a middle point accumulator 1 ends at the update of what the point before left. -/
theorem mid_acc1 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i) (x0 x1 xs0 xs1 xs2 : Vec F S2048x128 .f32) :
    sout0_B_1 c i a2 h2 a3 h3 a4 h4 a5 h5 a6 h6 a7 h7 hc0 hc1 x0 x1 xs0 xs1 xs2 = k0_pay6 x1 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  sl_unfold_words
  rw [View.canon_unit_zero (S := S2048x128) hz]
  simp only [View.readAt_eq_ld, h2.read_unread, h3.read_unread, h5.read_unread, h6.read_unread, h7.read_unread, View.ld_unit_zero (S := S2048x128) hz]

/-- At a middle point accumulator 2 ends at the update of what the point before left. -/
theorem mid_acc2 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : ¬cond0_1 i) (x0 x1 xs0 xs1 xs2 : Vec F S2048x128 .f32) :
    sout0_B_2 c i a2 h2 a3 h3 a4 h4 a5 h5 a6 h6 a7 h7 hc0 hc1 x0 x1 xs0 xs1 xs2 = k0_pay7 x1 xs2 := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  sl_unfold_words
  rw [View.canon_unit_zero (S := S2048x128) hz]
  simp only [View.readAt_eq_ld, h2.read_unread, h3.read_unread, h5.read_unread, h6.read_unread, h7.read_unread, View.ld_unit_zero (S := S2048x128) hz]

/-- At a core's last point accumulator 0 is updated as at a middle point. -/
theorem last_acc0 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i) (x0 x1 xs0 xs1 xs2 : Vec F S2048x128 .f32) :
    sout0_C_0 c i a2 h2 a3 h3 a4 h4 a5 h5 a6 h6 a7 h7 hc0 hc1 x0 x1 xs0 xs1 xs2 = k0_pay5 x0 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  sl_unfold_words
  rw [View.canon_unit_zero (S := S2048x128) hz]
  simp only [View.readAt_eq_ld, h2.read_unread, h3.read_unread, h5.read_unread, h6.read_unread, h7.read_unread, View.ld_unit_zero (S := S2048x128) hz]

/-- At a core's last point accumulator 1 is updated as at a middle point. -/
theorem last_acc1 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i) (x0 x1 xs0 xs1 xs2 : Vec F S2048x128 .f32) :
    sout0_C_1 c i a2 h2 a3 h3 a4 h4 a5 h5 a6 h6 a7 h7 hc0 hc1 x0 x1 xs0 xs1 xs2 = k0_pay6 x1 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  sl_unfold_words
  rw [View.canon_unit_zero (S := S2048x128) hz]
  simp only [View.readAt_eq_ld, h2.read_unread, h3.read_unread, h5.read_unread, h6.read_unread, h7.read_unread, View.ld_unit_zero (S := S2048x128) hz]

/-- At a core's last point accumulator 2 is updated as at a middle point. -/
theorem last_acc2 (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i) (x0 x1 xs0 xs1 xs2 : Vec F S2048x128 .f32) :
    sout0_C_2 c i a2 h2 a3 h3 a4 h4 a5 h5 a6 h6 a7 h7 hc0 hc1 x0 x1 xs0 xs1 xs2 = k0_pay7 x1 xs2 := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  sl_unfold_words
  rw [View.canon_unit_zero (S := S2048x128) hz]
  simp only [View.readAt_eq_ld, h2.read_unread, h3.read_unread, h5.read_unread, h6.read_unread, h7.read_unread, View.ld_unit_zero (S := S2048x128) hz]

/-- At a core's last point the output block is three stored slabs; slab k is the broadcast total of accumulator k as
    this point leaves it. -/
theorem last_out (c : Dev nD) (i : grid0.Coords) (a2 : Memref sig .tc .vmem S2048x128 .f32) (h2 : a2.IsWhole) (a3 : Memref sig .tc .vmem S2048x128 .f32) (h3 : a3.IsWhole) (a4 : Memref sig .tc .vmem S1x3x8x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (hc0 : ¬cond0_0 i) (hc1 : cond0_1 i) (x0 x1 xs0 xs1 xs2 : Vec F S2048x128 .f32) :
    out0_C_2 c i a2 h2 a3 h3 a4 h4 a5 h5 a6 h6 a7 h7 hc0 hc1 x0 x1 xs0 xs1 xs2
      = View.canon
        [⟨Rect.unit (s := S1x3x8x128) ![0, 2, 0, 0] S1x1x8x128.size inb_S1x3x8x128_S1x1x8x128_0_2_0_0, k0_pay10 (k0_pay7 x1 xs2)⟩,
         ⟨Rect.unit (s := S1x3x8x128) ![0, 1, 0, 0] S1x1x8x128.size inb_S1x3x8x128_S1x1x8x128_0_1_0_0, k0_pay9 (k0_pay6 x1 xs1)⟩,
         ⟨Rect.unit (s := S1x3x8x128) ![0, 0, 0, 0] S1x1x8x128.size inb_S1x3x8x128_S1x1x8x128_0_0_0_0, k0_pay8 (k0_pay5 x0 x1 xs0)⟩] := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  simp only [View.readCov_unit_zero (S := S2048x128) _ hz, View.readAt_eq_ld, h2.read_unread, h3.read_unread, h5.read_unread, h6.read_unread, h7.read_unread, View.ld_unit_zero (S := S2048x128) hz]

end Cert.ReferenceIdeal.RefValue
end
-- ==== Proof.RefStep.lean ====
/-
  One grid point of the reference, as a step on the three accumulators.

  The generated frame states what the accumulators and the output block hold after the point t by recursion on t over
  the three cases (a core's first point, a middle point, a core's last point). Here each case is read as the payloads:
  at a first point accumulator k holds its update of the zero block, at any other point its update of what the point
  before left, and at a last point the output block's three slabs hold the totals of the accumulators as just updated.
-/
import proofs.«181647_g2000509514383055_pallasbulk_1306_5_alg».proof.Proof.Gen.ReferenceIdeal.Frame
import proofs.«181647_g2000509514383055_pallasbulk_1306_5_alg».proof.Proof.RefPieces
import Idealize.ShloMosaic.PureOps.Ideal

set_option maxRecDepth 16384

noncomputable section

namespace Cert.ReferenceIdeal.RefValue

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

/-- A core's first point (t ≡ 0 mod 16). -/
theorem step_first (c : Dev nD) (t : Fin cfg0.N) (h0 : t.val % 16 = 0) :
    (outsAt0 m c t.val t.isLt).2.1 = k0_pay5 (iblk m c 0 t) (iblk m c 1 t) (k0_pay1 (F := Ideal))
    ∧ (outsAt0 m c t.val t.isLt).2.2.1 = k0_pay6 (iblk m c 1 t) (k0_pay2 (F := Ideal))
    ∧ (outsAt0 m c t.val t.isLt).2.2.2 = k0_pay7 (iblk m c 1 t) (k0_pay3 (F := Ideal)) := by
  have h1 : ¬t.val % 16 = 15 := by omega
  rw [outsAt0_A m c t h0 h1]
  dsimp only
  exact ⟨first_acc0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t),
    first_acc1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t),
    first_acc2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)⟩

/-- A middle point (t mod 16 neither 0 nor 15). -/
theorem step_mid (c : Dev nD) (t : Fin cfg0.N) (h0 : ¬t.val % 16 = 0) (h1 : ¬t.val % 16 = 15) :
    (outsAt0 m c t.val t.isLt).2.1 = k0_pay5 (iblk m c 0 t) (iblk m c 1 t) (outsAt0 m c (t.val - 1) (Nat.lt_of_le_of_lt (Nat.sub_le _ _) t.isLt)).2.1
    ∧ (outsAt0 m c t.val t.isLt).2.2.1 = k0_pay6 (iblk m c 1 t) (outsAt0 m c (t.val - 1) (Nat.lt_of_le_of_lt (Nat.sub_le _ _) t.isLt)).2.2.1
    ∧ (outsAt0 m c t.val t.isLt).2.2.2 = k0_pay7 (iblk m c 1 t) (outsAt0 m c (t.val - 1) (Nat.lt_of_le_of_lt (Nat.sub_le _ _) t.isLt)).2.2.2 := by
  rw [outsAt0_B m c t h0 h1]
  dsimp only
  exact ⟨mid_acc0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    mid_acc1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    mid_acc2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A core's last point (t ≡ 15 mod 16): the accumulators as at a middle point, -/
theorem step_last (c : Dev nD) (t : Fin cfg0.N) (h0 : ¬t.val % 16 = 0) (h1 : t.val % 16 = 15) :
    (outsAt0 m c t.val t.isLt).2.1 = k0_pay5 (iblk m c 0 t) (iblk m c 1 t) (outsAt0 m c (t.val - 1) (Nat.lt_of_le_of_lt (Nat.sub_le _ _) t.isLt)).2.1
    ∧ (outsAt0 m c t.val t.isLt).2.2.1 = k0_pay6 (iblk m c 1 t) (outsAt0 m c (t.val - 1) (Nat.lt_of_le_of_lt (Nat.sub_le _ _) t.isLt)).2.2.1
    ∧ (outsAt0 m c t.val t.isLt).2.2.2 = k0_pay7 (iblk m c 1 t) (outsAt0 m c (t.val - 1) (Nat.lt_of_le_of_lt (Nat.sub_le _ _) t.isLt)).2.2.2 := by
  rw [outsAt0_C m c t h0 h1]
  dsimp only
  exact ⟨last_acc0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_acc1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_acc2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- and the output block's three slabs at the totals of the accumulators as just updated. -/
theorem step_out (c : Dev nD) (t : Fin cfg0.N) (h0 : ¬t.val % 16 = 0) (h1 : t.val % 16 = 15) :
    (outsAt0 m c t.val t.isLt).1 = View.canon
        [⟨Rect.unit (s := S1x3x8x128) ![0, 2, 0, 0] S1x1x8x128.size inb_S1x3x8x128_S1x1x8x128_0_2_0_0, k0_pay10 (k0_pay7 (iblk m c 1 t) (outsAt0 m c (t.val - 1) (Nat.lt_of_le_of_lt (Nat.sub_le _ _) t.isLt)).2.2.2)⟩,
         ⟨Rect.unit (s := S1x3x8x128) ![0, 1, 0, 0] S1x1x8x128.size inb_S1x3x8x128_S1x1x8x128_0_1_0_0, k0_pay9 (k0_pay6 (iblk m c 1 t) (outsAt0 m c (t.val - 1) (Nat.lt_of_le_of_lt (Nat.sub_le _ _) t.isLt)).2.2.1)⟩,
         ⟨Rect.unit (s := S1x3x8x128) ![0, 0, 0, 0] S1x1x8x128.size inb_S1x3x8x128_S1x1x8x128_0_0_0_0, k0_pay8 (k0_pay5 (iblk m c 0 t) (iblk m c 1 t) (outsAt0 m c (t.val - 1) (Nat.lt_of_le_of_lt (Nat.sub_le _ _) t.isLt)).2.1)⟩] := by
  rw [outsAt0_C m c t h0 h1]
  dsimp only
  exact last_out (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.ReferenceIdeal.RefValue

end
-- ==== Proof.Spec.lean ====
/-
  The normalized mean-squared-error loss, as mathematics: what both programs compute before their common last lines.

  From a prediction `p` and a target `t`, both [2048, 4096], each of two cores sums three quantities over its half of
  the rows (core `c` has rows 1024 c … 1024 c + 1023) and all 4096 columns: the squared difference `(p − t)²`, the
  target `t`, and its square `t²`. The six sums are laid out as a [2, 3, 8, 128] array whose entry (c, k, ·, ·) is
  core `c`'s sum of quantity `k`, the same at every position of the trailing [8, 128] slab. Over the extended reals
  a finite sum does not depend on the order or grouping of its terms, so any tiling of a core's rows and any
  running-total order gives these same six numbers.
-/
import Idealize.ShloMosaic.PureOps.Ideal
import Idealize.ShloMosaic.Lib.ValueIdx

noncomputable section

open scoped BigOperators

namespace Cert.Nmse

open Idealize.ShloMosaic Idealize.ShloMosaic.ValueIdx

/-- The inputs' shape. -/
abbrev SIn : Shape := ⟨2, ![2048, 4096]⟩
/-- The partial sums' shape: core, quantity, and an [8, 128] slab holding one number throughout. -/
abbrev SPart : Shape := ⟨4, ![2, 3, 8, 128]⟩

/-- Row `r` of core `c`'s half of the rows. -/
def coreRow (c : Fin 2) (r : Fin 1024) : Fin 2048 := ⟨1024 * c.val + r.val, by have := c.isLt; have := r.isLt; omega⟩

/-- The three summed quantities at one element: `(p − t)²`, `t`, `t²`. -/
def summand (k : Fin 3) (p t : Ideal .f32) : Ideal .f32 :=
  match k with
  | ⟨0, _⟩ => (p - t) * (p - t)
  | ⟨1, _⟩ => t
  | ⟨2, _⟩ => t * t

/-- Core `c`'s sum of quantity `k`: over its 1024 rows and all 4096 columns. -/
def coreSum (p t : SIn.Idx → Ideal .f32) (c : Fin 2) (k : Fin 3) : Ideal .f32 :=
  ∑ r : Fin 1024, ∑ l : Fin 4096, summand k (p (ix2 (coreRow c r) l)) (t (ix2 (coreRow c r) l))

/-- The partial sums as an array: entry (c, k, ·, ·) is core `c`'s sum of quantity `k`. -/
def partials (p t : SIn.Idx → Ideal .f32) : SPart.Idx → Ideal .f32 :=
  fun j => coreSum p t (j 0) (j 1)

theorem partials_apply (p t : SIn.Idx → Ideal .f32) (c : Fin 2) (k : Fin 3) (s : Fin 8) (l : Fin 128) :
    partials p t (ix4 c k s l) = coreSum p t c k := rfl

end Cert.Nmse

end
-- ==== Proof.RefPay.lean ====
/-
  The reference body's arithmetic, read at an index over the extended reals.

  The reset stores the zero block. The three updates add to an accumulator, elementwise, the quantity of the current
  prediction block `x0` and target block `x1`: the squared difference, the target, the squared target. The three
  final payloads each total an accumulator over both axes — a sum into a one-element vector, whose value is the sum over
  every entry — and spread that number over an [8, 128] slab.
-/
import proofs.«181647_g2000509514383055_pallasbulk_1306_5_alg».proof.Proof.Gen.ReferenceIdeal.Skeleton
import proofs.«181647_g2000509514383055_pallasbulk_1306_5_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen
open Cert.Nmse (summand)

theorem summand_zero (a b : Ideal .f32) : summand 0 a b = (a - b) * (a - b) := rfl
theorem summand_one (a b : Ideal .f32) : summand 1 a b = b := rfl
theorem summand_two (a b : Ideal .f32) : summand 2 a b = b * b := rfl

/-- The block the reset stores is zero everywhere (one statement per accumulator: the three are printed separately). -/
theorem pay1_apply (j : S2048x128.Idx) : k0_pay1 (F := Ideal) j = 0 := by
  unfold k0_pay1
  refine (congrFun (shapeCast_self _ _) j).trans ?_
  exact Ideal.ofBits_zero_f32
theorem pay2_apply (j : S2048x128.Idx) : k0_pay2 (F := Ideal) j = 0 := by
  unfold k0_pay2
  refine (congrFun (shapeCast_self _ _) j).trans ?_
  exact Ideal.ofBits_zero_f32
theorem pay3_apply (j : S2048x128.Idx) : k0_pay3 (F := Ideal) j = 0 := by
  unfold k0_pay3
  refine (congrFun (shapeCast_self _ _) j).trans ?_
  exact Ideal.ofBits_zero_f32

/-- Accumulator 0's update adds the squared difference. -/
theorem pay5_apply (x0 x1 xs : Vec Ideal S2048x128 .f32) (j : S2048x128.Idx) :
    k0_pay5 (F := Ideal) x0 x1 xs j = xs j + summand 0 (x0 j) (x1 j) := by
  unfold k0_pay5 k0_pay4
  simp only [shapeCast_self]
  rfl

/-- Accumulator 1's update adds the target. -/
theorem pay6_apply (x1 xs : Vec Ideal S2048x128 .f32) (x0j : Ideal .f32) (j : S2048x128.Idx) :
    k0_pay6 (F := Ideal) x1 xs j = xs j + summand 1 x0j (x1 j) := by
  unfold k0_pay6 k0_pay4
  simp only [shapeCast_self]
  rfl

/-- Accumulator 2's update adds the squared target. -/
theorem pay7_apply (x1 xs : Vec Ideal S2048x128 .f32) (x0j : Ideal .f32) (j : S2048x128.Idx) :
    k0_pay7 (F := Ideal) x1 xs j = xs j + summand 2 x0j (x1 j) := by
  unfold k0_pay7 k0_pay4
  simp only [shapeCast_self]
  rfl

/-- The total of a [2048, 128] block over both axes, as the body computes it. -/
theorem total_eq (v : Vec Ideal S2048x128 .f32) (i : S1.Idx) :
    multiReduction (F := Ideal) .add [1, 2] S1 (shapeCast S1x2048x128 v shapeCasts_S2048x128_S1x2048x128) 0x00000000#32
        reduces_S1x2048x128_S1 (.inl rfl) rfl i
      = ∑ r : Fin 2048, ∑ l : Fin 128, v (ix2 r l) := by
  refine (Ideal.multiReduction_add_total _ _ _ (fun b => by fin_cases b; rfl) _ _ _).trans ?_
  refine (Equiv.sum_comp (Shape.reshapeEquiv shapeCasts_S2048x128_S1x2048x128) v).trans ?_
  exact sum_idx2 v

/-! Each final payload spreads the one entry of its block's total over its slab: a fact of the layout operations alone,
    stated for any float values so that the total itself is never opened to check it. -/

/-- The final payload 8 holds, at every position, the one entry of its block's total (for any float values). -/
theorem pay8_struct {F : FTy → Type} [FloatOps F] (v : Vec F S2048x128 .f32) (j : S1x1x8x128.Idx) :
    k0_pay8 v j = multiReduction .add [1, 2] S1 (shapeCast S1x2048x128 v shapeCasts_S2048x128_S1x2048x128) 0x00000000#32
        reduces_S1x2048x128_S1 (.inl rfl) rfl
        (Shape.reshapeEquiv shapeCasts_S1_S1x1x1 (fun a => ⟨(![0, 0, 0] : Fin 3 → Nat) a, inpos_S1x1x1_p0_0_0 a⟩)) := rfl

/-- The final payload 9 holds, at every position, the one entry of its block's total (for any float values). -/
theorem pay9_struct {F : FTy → Type} [FloatOps F] (v : Vec F S2048x128 .f32) (j : S1x1x8x128.Idx) :
    k0_pay9 v j = multiReduction .add [1, 2] S1 (shapeCast S1x2048x128 v shapeCasts_S2048x128_S1x2048x128) 0x00000000#32
        reduces_S1x2048x128_S1 (.inl rfl) rfl
        (Shape.reshapeEquiv shapeCasts_S1_S1x1x1 (fun a => ⟨(![0, 0, 0] : Fin 3 → Nat) a, inpos_S1x1x1_p0_0_0 a⟩)) := rfl

/-- The final payload 10 holds, at every position, the one entry of its block's total (for any float values). -/
theorem pay10_struct {F : FTy → Type} [FloatOps F] (v : Vec F S2048x128 .f32) (j : S1x1x8x128.Idx) :
    k0_pay10 v j = multiReduction .add [1, 2] S1 (shapeCast S1x2048x128 v shapeCasts_S2048x128_S1x2048x128) 0x00000000#32
        reduces_S1x2048x128_S1 (.inl rfl) rfl
        (Shape.reshapeEquiv shapeCasts_S1_S1x1x1 (fun a => ⟨(![0, 0, 0] : Fin 3 → Nat) a, inpos_S1x1x1_p0_0_0 a⟩)) := rfl

/-- So over the extended reals each final payload holds its block's total at every position. -/
theorem pay8_apply (v : Vec Ideal S2048x128 .f32) (j : S1x1x8x128.Idx) :
    k0_pay8 (F := Ideal) v j = ∑ r : Fin 2048, ∑ l : Fin 128, v (ix2 r l) :=
  (pay8_struct v j).trans (total_eq v _)
theorem pay9_apply (v : Vec Ideal S2048x128 .f32) (j : S1x1x8x128.Idx) :
    k0_pay9 (F := Ideal) v j = ∑ r : Fin 2048, ∑ l : Fin 128, v (ix2 r l) :=
  (pay9_struct v j).trans (total_eq v _)
theorem pay10_apply (v : Vec Ideal S2048x128 .f32) (j : S1x1x8x128.Idx) :
    k0_pay10 (F := Ideal) v j = ∑ r : Fin 2048, ∑ l : Fin 128, v (ix2 r l) :=
  (pay10_struct v j).trans (total_eq v _)

end Cert.ReferenceIdeal.RefValue

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.RefSums.lean ====
/-
  The finite sums behind the reference's partial sums, as pure mathematics over the two [2048, 4096] inputs.

  The reference views each input as a [65536, 128] slab (row-major, so slab entry (R, l) is flat element 128 R + l,
  which is entry (flat / 4096, flat % 4096) of the input) and cuts the slab into 32 blocks of 2048 slab rows. Entry
  (r, l) of block b is therefore the input's entry (64 b + r / 32, 128 (r % 32) + l) (`blkElt`). Core g works through
  blocks 16 g … 16 g + 15, adding each block's quantity elementwise into a [2048, 128] accumulator (`runSum`: the
  accumulator after the point n, counted from the core's first point), and finally totals the accumulator. As (i, r, l)
  runs over 16 blocks, 2048 rows and 128 lanes, (64 i + r / 32, 128 (r % 32) + l) runs exactly once over the core's
  1024 rows and 4096 columns (`sum_blocks`), so the total is the core's double sum (`core_total`).
-/
import proofs.«181647_g2000509514383055_pallasbulk_1306_5_alg».proof.Proof.Spec
import proofs.«181647_g2000509514383055_pallasbulk_1306_5_alg».proof.Proof.LibSumSplit

noncomputable section

open scoped BigOperators

namespace Cert.ReferenceIdeal.RefValue

open Idealize.ShloMosaic Idealize.ShloMosaic.ValueIdx
open Cert.PointDist (sum_tiles tileIdx tileIdx_val)
open Cert.Nmse (SIn summand coreSum coreRow)

/-- An input read at natural-number coordinates (zero outside the array, which is never read). -/
def elt (x : SIn.Idx → Ideal .f32) (R L : ℕ) : Ideal .f32 :=
  if h : R < 2048 ∧ L < 4096 then x (ix2 ⟨R, h.1⟩ ⟨L, h.2⟩) else 0

theorem elt_of_lt (x : SIn.Idx → Ideal .f32) (R L : ℕ) (hR : R < 2048) (hL : L < 4096) :
    elt x R L = x (ix2 ⟨R, hR⟩ ⟨L, hL⟩) := dif_pos ⟨hR, hL⟩

/-- Entry `j = (r, l)` of block `b` of the [65536, 128] view of an input. -/
def blkElt (x : SIn.Idx → Ideal .f32) (b : ℕ) (j : (⟨2, ![2048, 128]⟩ : Shape).Idx) : Ideal .f32 :=
  elt x (64 * b + (j 0).val / 32) (128 * ((j 0).val % 32) + (j 1).val)

/-- Accumulator `k` after the point `n`: the quantity summed over the blocks from the core's first point to `n`. -/
def runSum (k : Fin 3) (p t : SIn.Idx → Ideal .f32) (n : ℕ) (j : (⟨2, ![2048, 128]⟩ : Shape).Idx) : Ideal .f32 :=
  ∑ i ∈ Finset.range (n % 16 + 1), summand k (blkElt p (n - n % 16 + i) j) (blkElt t (n - n % 16 + i) j)

/-- At a core's first point the running sum is that block's quantity. -/
theorem runSum_first (k : Fin 3) (p t : SIn.Idx → Ideal .f32) (n : ℕ) (h : n % 16 = 0)
    (j : (⟨2, ![2048, 128]⟩ : Shape).Idx) : runSum k p t n j = summand k (blkElt p n j) (blkElt t n j) := by
  unfold runSum
  rw [h, Finset.sum_range_one]
  simp only [Nat.sub_zero, Nat.add_zero]

/-- At any later point it is the running sum of the point before plus this block's quantity. -/
theorem runSum_next (k : Fin 3) (p t : SIn.Idx → Ideal .f32) (n : ℕ) (h : ¬n % 16 = 0)
    (j : (⟨2, ![2048, 128]⟩ : Shape).Idx) :
    runSum k p t n j = runSum k p t (n - 1) j + summand k (blkElt p n j) (blkElt t n j) := by
  unfold runSum
  have e1 : n % 16 + 1 = ((n - 1) % 16 + 1) + 1 := by omega
  have e2 : n - n % 16 = (n - 1) - (n - 1) % 16 := by omega
  have e3 : (n - 1) - (n - 1) % 16 + ((n - 1) % 16 + 1) = n := by omega
  rw [e1, Finset.sum_range_succ, e2, e3]

/-- Sixteen blocks of 2048 slab rows of 128 lanes are 1024 rows of 4096 columns, each entry once. -/
theorem sum_blocks {M : Type*} [AddCommMonoid M] (f : ℕ → ℕ → M) :
    ∑ r : Fin 2048, ∑ l : Fin 128, ∑ i : Fin 16, f (64 * i.val + r.val / 32) (128 * (r.val % 32) + l.val)
      = ∑ R : Fin 1024, ∑ L : Fin 4096, f R.val L.val := by
  have hl : ∑ r : Fin 2048, ∑ l : Fin 128, ∑ i : Fin 16, f (64 * i.val + r.val / 32) (128 * (r.val % 32) + l.val)
      = ∑ a : Fin 64, ∑ b : Fin 32, ∑ l : Fin 128, ∑ i : Fin 16, f (64 * i.val + a.val) (128 * b.val + l.val) := by
    rw [sum_tiles (a := 64) (b := 32) (N := 2048) rfl]
    refine Finset.sum_congr rfl fun a _ => Finset.sum_congr rfl fun b _ => Finset.sum_congr rfl fun l _ =>
      Finset.sum_congr rfl fun i _ => ?_
    have hb := b.isLt
    rw [tileIdx_val, show (a.val * 32 + b.val) / 32 = a.val from by omega, show (a.val * 32 + b.val) % 32 = b.val from by omega]
  have hr : ∑ R : Fin 1024, ∑ L : Fin 4096, f R.val L.val
      = ∑ i : Fin 16, ∑ a : Fin 64, ∑ b : Fin 32, ∑ l : Fin 128, f (64 * i.val + a.val) (128 * b.val + l.val) := by
    rw [sum_tiles (a := 16) (b := 64) (N := 1024) rfl]
    refine Finset.sum_congr rfl fun i _ => Finset.sum_congr rfl fun a _ => ?_
    rw [sum_tiles (a := 32) (b := 128) (N := 4096) rfl]
    refine Finset.sum_congr rfl fun b _ => Finset.sum_congr rfl fun l _ => ?_
    rw [tileIdx_val, tileIdx_val, Nat.mul_comm i.val 64, Nat.mul_comm b.val 128]
  rw [hl, hr]
  calc ∑ a : Fin 64, ∑ b : Fin 32, ∑ l : Fin 128, ∑ i : Fin 16, f (64 * i.val + a.val) (128 * b.val + l.val)
      = ∑ a : Fin 64, ∑ b : Fin 32, ∑ i : Fin 16, ∑ l : Fin 128, f (64 * i.val + a.val) (128 * b.val + l.val) :=
        Finset.sum_congr rfl fun a _ => Finset.sum_congr rfl fun b _ => Finset.sum_comm
    _ = ∑ a : Fin 64, ∑ i : Fin 16, ∑ b : Fin 32, ∑ l : Fin 128, f (64 * i.val + a.val) (128 * b.val + l.val) :=
        Finset.sum_congr rfl fun a _ => Finset.sum_comm
    _ = ∑ i : Fin 16, ∑ a : Fin 64, ∑ b : Fin 32, ∑ l : Fin 128, f (64 * i.val + a.val) (128 * b.val + l.val) :=
        Finset.sum_comm

/-- The total of accumulator `k` after core `g`'s last point is the core's double sum of quantity `k`. -/
theorem core_total (k : Fin 3) (p t : SIn.Idx → Ideal .f32) (g : Fin 2) (n : ℕ) (hn : n = 16 * g.val + 15) :
    ∑ r : Fin 2048, ∑ l : Fin 128, runSum k p t n (ix2 r l) = coreSum p t g k := by
  subst hn
  have hg := g.isLt
  unfold runSum coreSum
  rw [show (16 * g.val + 15) % 16 + 1 = 16 from by omega, show 16 * g.val + 15 - (16 * g.val + 15) % 16 = 16 * g.val from by omega]
  have h := sum_blocks (fun R L => summand k (elt p (1024 * g.val + R) L) (elt t (1024 * g.val + R) L))
  refine Eq.trans ?_ (h.trans ?_)
  · refine Finset.sum_congr rfl fun r _ => Finset.sum_congr rfl fun l _ => ?_
    rw [Finset.sum_range]
    refine Finset.sum_congr rfl fun i _ => ?_
    unfold blkElt
    show summand k (elt p (64 * (16 * g.val + i.val) + r.val / 32) (128 * (r.val % 32) + l.val))
        (elt t (64 * (16 * g.val + i.val) + r.val / 32) (128 * (r.val % 32) + l.val)) = _
    rw [show 64 * (16 * g.val + i.val) + r.val / 32 = 1024 * g.val + (64 * i.val + r.val / 32) from by omega]
  · refine Finset.sum_congr rfl fun R _ => Finset.sum_congr rfl fun L _ => ?_
    have hR := R.isLt
    rw [elt_of_lt p _ _ (by omega) L.isLt, elt_of_lt t _ _ (by omega) L.isLt]
    rfl

end Cert.ReferenceIdeal.RefValue

end
-- ==== Proof.RefBlocks.lean ====
/-
  The blocks the reference's windows hand the body, read from the original inputs.

  Before the region each [2048, 4096] input is reshaped to a flat array of 8388608 elements and then to a [65536, 128]
  slab; both reshapes keep the row-major order. Window 0 (the prediction) and window 1 (the target) cut the slab into
  blocks of 2048 rows, and the point t of the grid reads block t.
-/
import proofs.«181647_g2000509514383055_pallasbulk_1306_5_alg».proof.Proof.Gen.ReferenceIdeal.Frame.Runs
import proofs.«181647_g2000509514383055_pallasbulk_1306_5_alg».proof.Proof.RefSums
import Idealize.ShloMosaic.Lib.Pipeline.Value
import Idealize.ShloMosaic.Lib.StableHlo.Run
import Idealize.ShloMosaic.Lib.Tactic

set_option maxRecDepth 16384

noncomputable section

open scoped BigOperators

namespace Cert.ReferenceIdeal.RefValue

open Idealize.ShloMosaic Idealize.ShloMosaic.TcCoe Idealize.ShloMosaic.Tactic Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ)

/-- The point `t` of the 2 × 16 grid reads block `t` of each input slab (block row `t`, block column 0). -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The slab window 0 reads is the input reshaped twice: to a flat array and then to [65536, 128]. -/
theorem slab0_eq (c : Dev nD) : (V m c main_v2 : S65536x128.Idx → Ideal .f32)
    = shapeCast S65536x128 (shapeCast S8388608 (m ((c.tc : Thread nD τ).loc main_arg0)) shapeCasts_S2048x4096_S8388608) shapeCasts_S8388608_S65536x128 := by
  show StableHlo.after hostOps0 (fun b => m (c, b)) (Proc.devRef .tc main_v2) = _
  after_results
  rfl

/-- Window 0's block at the point `t` is block `t` of that slab: entry (r, l) is slab entry (2048 t + r, l), flat
    element 128 (2048 t + r) + l, the input's entry (64 t + r / 32, 128 (r % 32) + l). -/
theorem blk0_apply (c : Dev nD) (t : Fin cfg0.N) (r : Fin 2048) (l : Fin 128) :
    (iblk m c 0 t : Vec Ideal S2048x128 .f32) (ix2 r l) = blkElt (m ((c.tc : Thread nD τ).loc main_arg0)) t.val (ix2 r l) := by
  have hN : t.val < 32 := lt_of_lt_of_eq t.isLt (show cfg0.N = 32 from N_0)
  have hr := r.isLt
  have hl := l.isLt
  have hi : win0_0.index t 0 = t.val ∧ win0_0.index t 1 = 0 := idx0 t
  have hR : 2048 * t.val + r.val < 65536 := by omega
  have hF : 128 * (2048 * t.val + r.val) + l.val < 8388608 := by omega
  have hrow : 64 * t.val + r.val / 32 < 2048 := by omega
  have hcol : 128 * (r.val % 32) + l.val < 4096 := by omega
  unfold iblk
  rw [View.read_apply]
  show V m c main_v2 _ = _
  rw [slab0_eq]
  refine (shapeCast_apply _ _ _ (ix1 (⟨128 * (2048 * t.val + r.val) + l.val, hF⟩ : Fin 8388608)) ?_).trans ?_
  · rw [Shape.rowMajor_val_one, Shape.rowMajor_val_two]
    show 128 * (2048 * t.val + r.val) + l.val = (win0_0.index t 0 * 2048 + 1 * r.val) * 128 + (win0_0.index t 1 * 128 + 1 * l.val)
    rw [hi.1, hi.2]; omega
  refine (shapeCast_apply _ _ _ (ix2 (⟨64 * t.val + r.val / 32, hrow⟩ : Fin 2048) (⟨128 * (r.val % 32) + l.val, hcol⟩ : Fin 4096)) ?_).trans ?_
  · rw [Shape.rowMajor_val_one, Shape.rowMajor_val_two]
    show (64 * t.val + r.val / 32) * 4096 + (128 * (r.val % 32) + l.val) = 128 * (2048 * t.val + r.val) + l.val
    omega
  exact (elt_of_lt _ _ _ hrow hcol).symm

/-- The slab window 1 reads is the input reshaped twice: to a flat array and then to [65536, 128]. -/
theorem slab1_eq (c : Dev nD) : (V m c main_v3 : S65536x128.Idx → Ideal .f32)
    = shapeCast S65536x128 (shapeCast S8388608 (m ((c.tc : Thread nD τ).loc main_arg1)) shapeCasts_S2048x4096_S8388608) shapeCasts_S8388608_S65536x128 := by
  show StableHlo.after hostOps0 (fun b => m (c, b)) (Proc.devRef .tc main_v3) = _
  after_results
  rfl

/-- Window 1's block at the point `t` is block `t` of that slab: entry (r, l) is slab entry (2048 t + r, l), flat
    element 128 (2048 t + r) + l, the input's entry (64 t + r / 32, 128 (r % 32) + l). -/
theorem blk1_apply (c : Dev nD) (t : Fin cfg0.N) (r : Fin 2048) (l : Fin 128) :
    (iblk m c 1 t : Vec Ideal S2048x128 .f32) (ix2 r l) = blkElt (m ((c.tc : Thread nD τ).loc main_arg1)) t.val (ix2 r l) := by
  have hN : t.val < 32 := lt_of_lt_of_eq t.isLt (show cfg0.N = 32 from N_0)
  have hr := r.isLt
  have hl := l.isLt
  have hi : win0_1.index t 0 = t.val ∧ win0_1.index t 1 = 0 := idx1 t
  have hR : 2048 * t.val + r.val < 65536 := by omega
  have hF : 128 * (2048 * t.val + r.val) + l.val < 8388608 := by omega
  have hrow : 64 * t.val + r.val / 32 < 2048 := by omega
  have hcol : 128 * (r.val % 32) + l.val < 4096 := by omega
  unfold iblk
  rw [View.read_apply]
  show V m c main_v3 _ = _
  rw [slab1_eq]
  refine (shapeCast_apply _ _ _ (ix1 (⟨128 * (2048 * t.val + r.val) + l.val, hF⟩ : Fin 8388608)) ?_).trans ?_
  · rw [Shape.rowMajor_val_one, Shape.rowMajor_val_two]
    show 128 * (2048 * t.val + r.val) + l.val = (win0_1.index t 0 * 2048 + 1 * r.val) * 128 + (win0_1.index t 1 * 128 + 1 * l.val)
    rw [hi.1, hi.2]; omega
  refine (shapeCast_apply _ _ _ (ix2 (⟨64 * t.val + r.val / 32, hrow⟩ : Fin 2048) (⟨128 * (r.val % 32) + l.val, hcol⟩ : Fin 4096)) ?_).trans ?_
  · rw [Shape.rowMajor_val_one, Shape.rowMajor_val_two]
    show (64 * t.val + r.val / 32) * 4096 + (128 * (r.val % 32) + l.val) = 128 * (2048 * t.val + r.val) + l.val
    omega
  exact (elt_of_lt _ _ _ hrow hcol).symm

end Cert.ReferenceIdeal.RefValue

end
-- ==== Proof.RefAcc.lean ====
/-
  The accumulators are running sums, and a core's output block holds their totals.

  By induction on the grid point: at a core's first point each accumulator is its update of the zero block, which is
  the first block's quantity; at every later point it is its update of the running sum the point before left, which
  is the running sum one block further. At a core's last point the three output slabs each hold the total of an
  accumulator at every position, so the output block at any index (·, k, ·, ·) is the total of running sum k.
-/
import proofs.«181647_g2000509514383055_pallasbulk_1306_5_alg».proof.Proof.RefStep
import proofs.«181647_g2000509514383055_pallasbulk_1306_5_alg».proof.Proof.RefPay
import proofs.«181647_g2000509514383055_pallasbulk_1306_5_alg».proof.Proof.RefBlocks

set_option maxRecDepth 16384

noncomputable section

open scoped BigOperators

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen
open Cert.Nmse (summand)

variable (m : (ℓ : Loc nD τ sig) → Buf (Elt Ideal) ℓ)

/-- The prediction and the target as core `c` is launched with them. -/
abbrev inp0 (c : Dev nD) : Cert.Nmse.SIn.Idx → Ideal .f32 := m ((c.tc : Thread nD τ).loc main_arg0)
abbrev inp1 (c : Dev nD) : Cert.Nmse.SIn.Idx → Ideal .f32 := m ((c.tc : Thread nD τ).loc main_arg1)

/-- After the point `n` accumulator `k` holds the running sum of quantity `k` from the core's first point. -/
theorem acc_eq (c : Dev nD) : ∀ (n : ℕ) (h : n < cfg0.N),
    (outsAt0 m c n h).2.1 = runSum 0 (inp0 m c) (inp1 m c) n
    ∧ (outsAt0 m c n h).2.2.1 = runSum 1 (inp0 m c) (inp1 m c) n
    ∧ (outsAt0 m c n h).2.2.2 = runSum 2 (inp0 m c) (inp1 m c) n
  | n, h => by
    by_cases h0 : n % 16 = 0
    · obtain ⟨e0, e1, e2⟩ := step_first m c (⟨n, h⟩ : Fin cfg0.N) h0
      refine ⟨e0.trans (funext fun j => ?_), e1.trans (funext fun j => ?_), e2.trans (funext fun j => ?_)⟩
      · obtain ⟨r, l, rfl⟩ : ∃ (r : Fin 2048) (l : Fin 128), j = ix2 r l := ⟨j 0, j 1, eq_ix2 j⟩
        refine (pay5_apply (iblk m c 0 (⟨n, h⟩ : Fin cfg0.N)) (iblk m c 1 (⟨n, h⟩ : Fin cfg0.N)) (k0_pay1 (F := Ideal)) (ix2 r l)).trans ?_
        refine (congrArg₂ (· + ·) (pay1_apply (ix2 r l)) (congrArg₂ (summand 0) (blk0_apply m c (⟨n, h⟩ : Fin cfg0.N) r l) (blk1_apply m c (⟨n, h⟩ : Fin cfg0.N) r l))).trans ?_
        exact (zero_add _).trans (runSum_first 0 _ _ n h0 (ix2 r l)).symm
      · obtain ⟨r, l, rfl⟩ : ∃ (r : Fin 2048) (l : Fin 128), j = ix2 r l := ⟨j 0, j 1, eq_ix2 j⟩
        refine (pay6_apply (iblk m c 1 (⟨n, h⟩ : Fin cfg0.N)) (k0_pay2 (F := Ideal)) ((iblk m c 0 (⟨n, h⟩ : Fin cfg0.N)) (ix2 r l)) (ix2 r l)).trans ?_
        refine (congrArg₂ (· + ·) (pay2_apply (ix2 r l)) (congrArg₂ (summand 1) (blk0_apply m c (⟨n, h⟩ : Fin cfg0.N) r l) (blk1_apply m c (⟨n, h⟩ : Fin cfg0.N) r l))).trans ?_
        exact (zero_add _).trans (runSum_first 1 _ _ n h0 (ix2 r l)).symm
      · obtain ⟨r, l, rfl⟩ : ∃ (r : Fin 2048) (l : Fin 128), j = ix2 r l := ⟨j 0, j 1, eq_ix2 j⟩
        refine (pay7_apply (iblk m c 1 (⟨n, h⟩ : Fin cfg0.N)) (k0_pay3 (F := Ideal)) ((iblk m c 0 (⟨n, h⟩ : Fin cfg0.N)) (ix2 r l)) (ix2 r l)).trans ?_
        refine (congrArg₂ (· + ·) (pay3_apply (ix2 r l)) (congrArg₂ (summand 2) (blk0_apply m c (⟨n, h⟩ : Fin cfg0.N) r l) (blk1_apply m c (⟨n, h⟩ : Fin cfg0.N) r l))).trans ?_
        exact (zero_add _).trans (runSum_first 2 _ _ n h0 (ix2 r l)).symm
    · have hlt : n - 1 < n := by omega
      obtain ⟨i0, i1, i2⟩ := acc_eq c (n - 1) (Nat.lt_of_le_of_lt (Nat.sub_le _ _) h)
      have hstep : (outsAt0 m c n h).2.1 = k0_pay5 (iblk m c 0 (⟨n, h⟩ : Fin cfg0.N)) (iblk m c 1 (⟨n, h⟩ : Fin cfg0.N)) (outsAt0 m c (n - 1) (Nat.lt_of_le_of_lt (Nat.sub_le _ _) h)).2.1
          ∧ (outsAt0 m c n h).2.2.1 = k0_pay6 (iblk m c 1 (⟨n, h⟩ : Fin cfg0.N)) (outsAt0 m c (n - 1) (Nat.lt_of_le_of_lt (Nat.sub_le _ _) h)).2.2.1
          ∧ (outsAt0 m c n h).2.2.2 = k0_pay7 (iblk m c 1 (⟨n, h⟩ : Fin cfg0.N)) (outsAt0 m c (n - 1) (Nat.lt_of_le_of_lt (Nat.sub_le _ _) h)).2.2.2 := by
        by_cases h1 : n % 16 = 15
        · exact step_last m c (⟨n, h⟩ : Fin cfg0.N) h0 h1
        · exact step_mid m c (⟨n, h⟩ : Fin cfg0.N) h0 h1
      obtain ⟨e0, e1, e2⟩ := hstep
      refine ⟨e0.trans (funext fun j => ?_), e1.trans (funext fun j => ?_), e2.trans (funext fun j => ?_)⟩
      · obtain ⟨r, l, rfl⟩ : ∃ (r : Fin 2048) (l : Fin 128), j = ix2 r l := ⟨j 0, j 1, eq_ix2 j⟩
        refine (pay5_apply (iblk m c 0 (⟨n, h⟩ : Fin cfg0.N)) (iblk m c 1 (⟨n, h⟩ : Fin cfg0.N)) (outsAt0 m c (n - 1) (Nat.lt_of_le_of_lt (Nat.sub_le _ _) h)).2.1 (ix2 r l)).trans ?_
        refine (congrArg₂ (· + ·) (congrFun i0 (ix2 r l)) (congrArg₂ (summand 0) (blk0_apply m c (⟨n, h⟩ : Fin cfg0.N) r l) (blk1_apply m c (⟨n, h⟩ : Fin cfg0.N) r l))).trans ?_
        exact (runSum_next 0 _ _ n h0 (ix2 r l)).symm
      · obtain ⟨r, l, rfl⟩ : ∃ (r : Fin 2048) (l : Fin 128), j = ix2 r l := ⟨j 0, j 1, eq_ix2 j⟩
        refine (pay6_apply (iblk m c 1 (⟨n, h⟩ : Fin cfg0.N)) (outsAt0 m c (n - 1) (Nat.lt_of_le_of_lt (Nat.sub_le _ _) h)).2.2.1 ((iblk m c 0 (⟨n, h⟩ : Fin cfg0.N)) (ix2 r l)) (ix2 r l)).trans ?_
        refine (congrArg₂ (· + ·) (congrFun i1 (ix2 r l)) (congrArg₂ (summand 1) (blk0_apply m c (⟨n, h⟩ : Fin cfg0.N) r l) (blk1_apply m c (⟨n, h⟩ : Fin cfg0.N) r l))).trans ?_
        exact (runSum_next 1 _ _ n h0 (ix2 r l)).symm
      · obtain ⟨r, l, rfl⟩ : ∃ (r : Fin 2048) (l : Fin 128), j = ix2 r l := ⟨j 0, j 1, eq_ix2 j⟩
        refine (pay7_apply (iblk m c 1 (⟨n, h⟩ : Fin cfg0.N)) (outsAt0 m c (n - 1) (Nat.lt_of_le_of_lt (Nat.sub_le _ _) h)).2.2.2 ((iblk m c 0 (⟨n, h⟩ : Fin cfg0.N)) (ix2 r l)) (ix2 r l)).trans ?_
        refine (congrArg₂ (· + ·) (congrFun i2 (ix2 r l)) (congrArg₂ (summand 2) (blk0_apply m c (⟨n, h⟩ : Fin cfg0.N) r l) (blk1_apply m c (⟨n, h⟩ : Fin cfg0.N) r l))).trans ?_
        exact (runSum_next 2 _ _ n h0 (ix2 r l)).symm
  termination_by n => n
  decreasing_by omega

/-- At a core's last point the output block at (·, k, ·, ·) is the total of running sum `k` over the [2048, 128] block. -/
theorem out_eq (c : Dev nD) (t : Fin cfg0.N) (h1 : t.val % 16 = 15) (y : S1x3x8x128.Idx) :
    (outsAt0 m c t.val t.isLt).1 y
      = ∑ r : Fin 2048, ∑ l : Fin 128, runSum (y 1) (inp0 m c) (inp1 m c) t.val (ix2 r l) := by
  have h0 : ¬t.val % 16 = 0 := by omega
  obtain ⟨e0, e1, e2⟩ := step_last m c t h0 h1
  obtain ⟨a0, a1, a2⟩ := acc_eq m c t.val t.isLt
  have b0 := e0.symm.trans a0
  have b1 := e1.symm.trans a1
  have b2 := e2.symm.trans a2
  refine (congrFun (step_out m c t h0 h1) y).trans ?_
  rw [b0, b1, b2]
  refine View.canon_apply_of_pieces (Val := Elt Ideal) (S := S1x3x8x128) (e := .f32)
    (fun y : S1x3x8x128.Idx => ∑ r : Fin 2048, ∑ l : Fin 128, runSum (y 1) (inp0 m c) (inp1 m c) t.val (ix2 r l)) _ ?_ y ?_
  · intro p hp x
    simp only [List.mem_cons, List.mem_nil_iff, or_false] at hp
    rcases hp with rfl | rfl | rfl
    · refine (pay10_apply _ x).trans ?_
      have hx : (x 1).val < 1 := (x 1).isLt
      have e : ((Rect.unit (s := S1x3x8x128) ![0, 2, 0, 0] S1x1x8x128.size inb_S1x3x8x128_S1x1x8x128_0_2_0_0).emb x) 1 = (2 : Fin 3) := Fin.ext (by show 2 + 1 * (x 1).val = 2; omega)
      show _ = ∑ r : Fin 2048, ∑ l : Fin 128, runSum (((Rect.unit (s := S1x3x8x128) ![0, 2, 0, 0] S1x1x8x128.size inb_S1x3x8x128_S1x1x8x128_0_2_0_0).emb x) 1) (inp0 m c) (inp1 m c) t.val (ix2 r l)
      rw [e]
    · refine (pay9_apply _ x).trans ?_
      have hx : (x 1).val < 1 := (x 1).isLt
      have e : ((Rect.unit (s := S1x3x8x128) ![0, 1, 0, 0] S1x1x8x128.size inb_S1x3x8x128_S1x1x8x128_0_1_0_0).emb x) 1 = (1 : Fin 3) := Fin.ext (by show 1 + 1 * (x 1).val = 1; omega)
      show _ = ∑ r : Fin 2048, ∑ l : Fin 128, runSum (((Rect.unit (s := S1x3x8x128) ![0, 1, 0, 0] S1x1x8x128.size inb_S1x3x8x128_S1x1x8x128_0_1_0_0).emb x) 1) (inp0 m c) (inp1 m c) t.val (ix2 r l)
      rw [e]
    · refine (pay8_apply _ x).trans ?_
      have hx : (x 1).val < 1 := (x 1).isLt
      have e : ((Rect.unit (s := S1x3x8x128) ![0, 0, 0, 0] S1x1x8x128.size inb_S1x3x8x128_S1x1x8x128_0_0_0_0).emb x) 1 = (0 : Fin 3) := Fin.ext (by show 0 + 1 * (x 1).val = 0; omega)
      show _ = ∑ r : Fin 2048, ∑ l : Fin 128, runSum (((Rect.unit (s := S1x3x8x128) ![0, 0, 0, 0] S1x1x8x128.size inb_S1x3x8x128_S1x1x8x128_0_0_0_0).emb x) 1) (inp0 m c) (inp1 m c) t.val (ix2 r l)
      rw [e]
  · have hy0 : (y 0).val < 1 := (y 0).isLt
    have hy1 : (y 1).val < 3 := (y 1).isLt
    have hy2 : (y 2).val < 8 := (y 2).isLt
    have hy3 : (y 3).val < 128 := (y 3).isLt
    rcases (by omega : (y 1).val = 2 ∨ (y 1).val = 1 ∨ (y 1).val = 0) with hk | hk | hk
    · refine ⟨⟨Rect.unit (s := S1x3x8x128) ![0, 2, 0, 0] S1x1x8x128.size inb_S1x3x8x128_S1x1x8x128_0_2_0_0, k0_pay10 (F := Ideal) (runSum 2 (inp0 m c) (inp1 m c) t.val)⟩, List.mem_cons_self, ?_⟩
      show y ∈ (Rect.unit (s := S1x3x8x128) ![0, 2, 0, 0] S1x1x8x128.size inb_S1x3x8x128_S1x1x8x128_0_2_0_0).set
      rw [Rect.mem_set_unit]
      intro a
      match a with
      | ⟨0, _⟩ => show (0 : ℕ) ≤ (y 0).val ∧ (y 0).val < 0 + 1; omega
      | ⟨1, _⟩ => show (2 : ℕ) ≤ (y 1).val ∧ (y 1).val < 2 + 1; omega
      | ⟨2, _⟩ => show (0 : ℕ) ≤ (y 2).val ∧ (y 2).val < 0 + 8; omega
      | ⟨3, _⟩ => show (0 : ℕ) ≤ (y 3).val ∧ (y 3).val < 0 + 128; omega
    · refine ⟨⟨Rect.unit (s := S1x3x8x128) ![0, 1, 0, 0] S1x1x8x128.size inb_S1x3x8x128_S1x1x8x128_0_1_0_0, k0_pay9 (F := Ideal) (runSum 1 (inp0 m c) (inp1 m c) t.val)⟩, List.mem_cons_of_mem _ List.mem_cons_self, ?_⟩
      show y ∈ (Rect.unit (s := S1x3x8x128) ![0, 1, 0, 0] S1x1x8x128.size inb_S1x3x8x128_S1x1x8x128_0_1_0_0).set
      rw [Rect.mem_set_unit]
      intro a
      match a with
      | ⟨0, _⟩ => show (0 : ℕ) ≤ (y 0).val ∧ (y 0).val < 0 + 1; omega
      | ⟨1, _⟩ => show (1 : ℕ) ≤ (y 1).val ∧ (y 1).val < 1 + 1; omega
      | ⟨2, _⟩ => show (0 : ℕ) ≤ (y 2).val ∧ (y 2).val < 0 + 8; omega
      | ⟨3, _⟩ => show (0 : ℕ) ≤ (y 3).val ∧ (y 3).val < 0 + 128; omega
    · refine ⟨⟨Rect.unit (s := S1x3x8x128) ![0, 0, 0, 0] S1x1x8x128.size inb_S1x3x8x128_S1x1x8x128_0_0_0_0, k0_pay8 (F := Ideal) (runSum 0 (inp0 m c) (inp1 m c) t.val)⟩, List.mem_cons_of_mem _ (List.mem_cons_of_mem _ List.mem_cons_self), ?_⟩
      show y ∈ (Rect.unit (s := S1x3x8x128) ![0, 0, 0, 0] S1x1x8x128.size inb_S1x3x8x128_S1x1x8x128_0_0_0_0).set
      rw [Rect.mem_set_unit]
      intro a
      match a with
      | ⟨0, _⟩ => show (0 : ℕ) ≤ (y 0).val ∧ (y 0).val < 0 + 1; omega
      | ⟨1, _⟩ => show (0 : ℕ) ≤ (y 1).val ∧ (y 1).val < 0 + 1; omega
      | ⟨2, _⟩ => show (0 : ℕ) ≤ (y 2).val ∧ (y 2).val < 0 + 8; omega
      | ⟨3, _⟩ => show (0 : ℕ) ≤ (y 3).val ∧ (y 3).val < 0 + 128; omega

end Cert.ReferenceIdeal.RefValue

end
-- ==== Proof.RefFinal.lean ====
/-
  The region's result array is the array of partial sums.

  Output window 2 is the [2, 3, 8, 128] result cut into two [1, 3, 8, 128] blocks, block g written back once, at core
  g's last point 16 g + 15. What that point writes is the block whose entry (·, k, ·, ·) is the total of running sum k,
  which is core g's double sum of quantity k: the block at g of the array of partial sums. The two blocks cover the
  result, so after the region it is that array.
-/
import proofs.«181647_g2000509514383055_pallasbulk_1306_5_alg».proof.Proof.RefAcc
import Idealize.ShloMosaic.Lib.Pipeline.Value

set_option maxRecDepth 16384

noncomputable section

open scoped BigOperators

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ)

/-- The point `t` addresses output block `t / 16` (the core), at offsets zero on the other axes. -/
theorem idx2 : ∀ t : Fin cfg0.N, win0_2.index t 0 = t.val / 16 ∧ win0_2.index t 1 = 0 ∧ win0_2.index t 2 = 0 ∧ win0_2.index t 3 = 0 :=
  (by decide +kernel : ∀ t : Fin grid0.N, win0_2.index t 0 = t.val / 16 ∧ win0_2.index t 1 = 0 ∧ win0_2.index t 2 = 0 ∧ win0_2.index t 3 = 0)

/-- The array of partial sums of the two inputs, as contents of the region's result. -/
abbrev result (c : Dev nD) : Buf (Elt Ideal) ((c.tc : Thread nD τ).loc main_v4) :=
  Cert.Nmse.partials (inp0 m c) (inp1 m c)

/-- What a core's last point writes back is its block of the partial sums. -/
theorem flushed_eq (c : Dev nD) (t : Fin cfg0.N) (hf : (cfg0.win 2).flush t = true) :
    (dats m 0 c).flushed 2 t = ((cfg0.win 2).blk t).view.read (Elt Ideal) (result m c) := by
  have h1 : t.val % 16 = 15 := (flush0_2 t).mp hf
  have hN : t.val < 32 := lt_of_lt_of_eq t.isLt (show cfg0.N = 32 from N_0)
  have hg : t.val / 16 < 2 := by omega
  show (cfg0.win 2).cut (grid0.coords t) ((dats m 0 c).after 2 t) = _
  rw [after0_2]
  funext y
  rw [View.read_apply]
  have hy0 : (y 0).val < 1 := (y 0).isLt
  show (outsAt0 m c t.val t.isLt).1 (win0_2.xinj (grid0.coords t) y) = result m c (((cfg0.win 2).blk t).view.emb y)
  refine (out_eq m c t h1 (win0_2.xinj (grid0.coords t) y)).trans ?_
  refine (core_total _ (inp0 m c) (inp1 m c) (⟨t.val / 16, hg⟩ : Fin 2) t.val (by show t.val = 16 * (t.val / 16) + 15; omega)).trans ?_
  show Cert.Nmse.coreSum (inp0 m c) (inp1 m c) (⟨t.val / 16, hg⟩ : Fin 2) ((win0_2.xinj (grid0.coords t) y) 1)
    = Cert.Nmse.coreSum (inp0 m c) (inp1 m c) ((((cfg0.win 2).blk t).view.emb y) 0) ((((cfg0.win 2).blk t).view.emb y) 1)
  refine congrArg₂ (Cert.Nmse.coreSum (inp0 m c) (inp1 m c)) (Fin.ext ?_) (Fin.ext ?_)
  · show t.val / 16 = win0_2.index t 0 * 1 + 1 * (y 0).val
    rw [(idx2 t).1]; omega
  · show (y 1).val = win0_2.index t 1 * 3 + 1 * (y 1).val
    rw [(idx2 t).2.1]; omega

/-- Every entry of the result lies in the block its core's last point writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 3 := (i 1).isLt
  have h2 : (i 2 : Nat) < 8 := (i 2).isLt
  have h3 : (i 3 : Nat) < 128 := (i 3).isLt
  obtain ⟨t, ht⟩ : ∃ t : Fin cfg0.N, t.val = 16 * (i 0 : Nat) + 15 :=
    ⟨⟨16 * (i 0 : Nat) + 15, by rw [show cfg0.N = 32 from N_0]; omega⟩, rfl⟩
  have e := idx2 t
  refine ⟨t, (flush0_2 t).mpr (by omega), ?_⟩
  show i ∈ ((View.whole main_v4).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [e.1]; omega
  | ⟨1, _⟩ =>
    show win0_2.index t 1 * 3 ≤ (i 1 : Nat) ∧ (i 1 : Nat) < win0_2.index t 1 * 3 + 3
    rw [e.2.1]; omega
  | ⟨2, _⟩ =>
    show win0_2.index t 2 * 8 ≤ (i 2 : Nat) ∧ (i 2 : Nat) < win0_2.index t 2 * 8 + 8
    rw [e.2.2.1]; omega
  | ⟨3, _⟩ =>
    show win0_2.index t 3 * 128 ≤ (i 3 : Nat) ∧ (i 3 : Nat) < win0_2.index t 3 * 128 + 128
    rw [e.2.2.2]; omega

/-- So the region's result ends as the array of partial sums. -/
theorem final (c : Dev nD) : (dats m 0 c).arrAt 2 cfg0.N = result m c :=
  (dats m 0 c).arrAt_eq_of_cover 2 (result m c) (flushed_eq m c) (cover c)

end Cert.ReferenceIdeal.RefValue

end
-- ==== Proof.RefRun.lean ====
/-
  The reference's run, read as a value.

  After the region nineteen host operations turn the [2, 3, 8, 128] array of partial sums into the loss: they take the
  entry at slab position (0, 0) of each of the six sums, add the two cores' sums of each quantity, scale the three
  totals by 2⁻²³ (the reciprocal of the number of elements), and divide the mean squared difference by the target's
  variance. These operations are one function `tail` of the region's result and are never opened: the reference's
  final buffer is `tail` of the array of partial sums, and both inputs end as they were launched.
-/
import proofs.«181647_g2000509514383055_pallasbulk_1306_5_alg».proof.Proof.RefFinal
import Idealize.ShloMosaic.Lib.StableHlo.Run
import Idealize.ShloMosaic.Lib.Tactic

set_option maxRecDepth 16384

noncomputable section

namespace Cert.ReferenceIdeal.RefValue

open Idealize.ShloMosaic Idealize.ShloMosaic.TcCoe Idealize.ShloMosaic.Tactic Idealize.SL.Sem
open Idealize.ShloMosaic.Pipeline (Dat)
open Cert.ReferenceIdeal Cert.ReferenceIdeal.Gen

/-- The host operations after the region, for any float values, as one function of the region's result. -/
def tailOf {F : FTy → Type} [FloatOps F] (P : FVec F S2x3x8x128 .f32) : FVec F S_ .f32 :=
  let v5 : FVec F S2x3x1x1 .f32 := extractStridedSlice S2x3x1x1 ![0, 0, 0, 0] P slices_S2x3x8x128_S2x3x1x1_0_0_0_0
  let v6 : FVec F S2x3 .f32 := shapeCast S2x3 v5 shapeCasts_S2x3x1x1_S2x3
  let v7 : FVec F S3 .f32 := Host.reduceAdd (F := F) v6 (constant (F := F) S_ .f32 0x00000000#32) reducesTo_S2x3_S3_d0 h_S_
  let v9 : FVec F S_ .f32 := shapeCast S_ (extractStridedSlice S1 ![0] v7 slices_S3_S1_0) shapeCasts_S1_S_
  let v10 : FVec F S_ .f32 := mulf v9 (constant (F := F) S_ .f32 0x34000000#32)
  let v12 : FVec F S_ .f32 := shapeCast S_ (extractStridedSlice S1 ![1] v7 slices_S3_S1_1) shapeCasts_S1_S_
  let v13 : FVec F S_ .f32 := mulf v12 (constant (F := F) S_ .f32 0x34000000#32)
  let v15 : FVec F S_ .f32 := shapeCast S_ (extractStridedSlice S1 ![2] v7 slices_S3_S1_2) shapeCasts_S1_S_
  let v16 : FVec F S_ .f32 := mulf v15 (constant (F := F) S_ .f32 0x34000000#32)
  let v17 : FVec F S_ .f32 := mulf v13 v13
  let v18 : FVec F S_ .f32 := subf v16 v17
  Host.divf (F := F) v10 v18

/-- The same over the extended reals: the function both programs' last lines compute. -/
def tail (P : FVec Ideal S2x3x8x128 .f32) : FVec Ideal S_ .f32 := tailOf (F := Ideal) P

section
variable {F : FTy → Type} [FloatOps F]
variable (m : (ℓ : Loc nD τ sig) → Buf (Elt F) ℓ)

/-- The final buffer after the host tail is `tailOf` of the region's result as the pipeline left it (a fact of the
    operations' order alone, for any float values). -/
theorem afterTail_eq (c : Dev nD) :
    Pipeline.afterTail₀ cfgs (dats m) 0 (V0 m) [hostOps1] c main_v19
      = tailOf (Pipeline.withArrays (cfgs 0).spec c (V0 m c) (fun w => (dats m 0 c).arrAt w (cfgs 0).N) (Proc.devRef .tc main_v4)) := by
  unfold Pipeline.afterTail₀
  show StableHlo.after hostOps1 _ (Proc.devRef .tc main_v19) = _
  after_results
  rfl
end

variable (m : (ℓ : Loc nD τ sig) → Buf (Elt Ideal) ℓ) (ρ : Dev nD → PrngReg)

/-- At the compiled mesh, from any memory with zero counters: every weakly fair execution of the reference terminates,
    its final buffer holding `tail` of the array of partial sums of its two inputs, and the inputs unchanged. -/
theorem run : θ_run (defs (F := Ideal)) (onTc (τ := τ) (main (F := Ideal))) ⟨m, fun _ => 0, ρ⟩ (fun r => ∀ c : Dev nD,
      r.2.mem ((c.tc : Thread nD τ).loc main_v19)
        = tail (Cert.Nmse.partials (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 (by decide) (by decide))).trans
        ((afterTail_eq m c).trans (congrArg (tailOf (F := Ideal))
          ((Pipeline.withArrays_arr spec0 launch0.win.arr_inj c _ _ 2).trans (final m c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.ReferenceIdeal.RefValue

end
-- ==== Proof.KiFinal.lean ====
/-
  The kernel's run, read as a value.

  At a core's last step the output block's slab `k` holds the total of the scratch's slab `k`, which is the sum over
  the core's eight steps, the sixteen row groups of each tile, the eight sublanes and the 4096 columns of quantity
  `k` — the core's 1024 rows and all columns, each element once: the specification's core sum. Output window 2 is the
  [2, 3, 8, 128] result cut into two [1, 3, 8, 128] blocks, block `g` written back once, at core `g`'s last step; the
  two blocks cover the result, so after the region it is the array of partial sums. The nineteen host operations
  after the region are the same function of that array as in the reference, written once there for any float values.
-/import proofs.«181647_g2000509514383055_pallasbulk_1306_5_alg».proof.Proof.KiChain
import proofs.«181647_g2000509514383055_pallasbulk_1306_5_alg».proof.Proof.RefRun
import Idealize.ShloMosaic.Lib.StableHlo.Run
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body

open Idealize.ShloMosaic.Tactic
open Cert.Nmse (summand coreRow rowOf coreSum)

variable (m : (ℓ : Loc nD τ sig) → Buf (Elt Ideal) ℓ) (ρ : Dev nD → PrngReg)

/-- The two argument arrays as launched. -/
abbrev inp0 (c : Dev nD) : Vec Ideal S2048x4096 .f32 := m ((c.tc : Thread nD τ).loc main_arg0)
abbrev inp1 (c : Dev nD) : Vec Ideal S2048x4096 .f32 := m ((c.tc : Thread nD τ).loc main_arg1)

/-- The total of slab `k` after core `cc`'s last step is the core's sum of quantity `k`. -/
theorem slab_total_eq (c : Dev nD) (t : Fin cfg0.N) (cc : Fin 2) (ht : t.val = 8 * cc.val + 7) (k : Fin 3) :
    slabTotal (stateAt m c t.val t.isLt).2 k = coreSum (inp0 m c) (inp1 m c) cc k := by
  obtain rfl : t = pt cc 7 := Fin.ext ht
  unfold slabTotal
  refine (Finset.sum_congr rfl fun s _ => Finset.sum_congr rfl fun l _ => acc_full m c cc k s l).trans ?_
  refine Eq.trans ?_ (Cert.Nmse.sum_kernel_order
    (fun r l => summand k (inp0 m c (ix2 (coreRow cc r) l)) (inp1 m c (ix2 (coreRow cc r) l))))
  refine Finset.sum_congr rfl fun s _ => Finset.sum_congr rfl fun l _ => Finset.sum_congr rfl fun i _ => ?_
  show (∑ g : Fin 16, tq k (iblk m c 0 (pt cc i)) (iblk m c 1 (pt cc i)) (grow g s) l) = _
  refine Finset.sum_congr rfl fun g _ => ?_
  show summand k ((iblk m c 0 (pt cc i) : Vec Ideal S128x4096 .f32) (ix2 (grow g s) l))
      ((iblk m c 1 (pt cc i) : Vec Ideal S128x4096 .f32) (ix2 (grow g s) l)) = _
  rw [iblk0_apply, iblk1_apply]
  have e : tileRow (pt cc i) (grow g s) = coreRow cc (rowOf i g s) := Fin.ext (by
    show 128 * (8 * cc.val + i.val) + (8 * g.val + s.val) = 1024 * cc.val + (128 * i.val + 8 * g.val + s.val)
    omega)
  rw [e]

/-- The point `t` addresses output block `t / 8` (the core), at offsets zero on the other axes. -/
theorem idx2 : ∀ t : Fin cfg0.N, win0_2.index t 0 = t.val / 8 ∧ win0_2.index t 1 = 0 ∧ win0_2.index t 2 = 0 ∧ win0_2.index t 3 = 0 :=
  (by decide +kernel : ∀ t : Fin grid0.N, win0_2.index t 0 = t.val / 8 ∧ win0_2.index t 1 = 0 ∧ win0_2.index t 2 = 0 ∧ win0_2.index t 3 = 0)

/-- The array of partial sums of the two inputs, as contents of the region's result. -/
abbrev result (c : Dev nD) : Buf (Elt Ideal) ((c.tc : Thread nD τ).loc main_v0) :=
  Cert.Nmse.partials (inp0 m c) (inp1 m c)

/-- What a core's last step writes back is its block of the partial sums. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have hN : t.val < 16 := lt_of_lt_of_eq t.isLt N16
  have hg : t.val / 8 < 2 := by omega
  show (cfg0.win 2).cut (grid0.coords t) ((dats m 0 c).after 2 t) = _
  rw [after2]
  funext y
  rw [View.read_apply]
  have hy0 : (y 0).val < 1 := (y 0).isLt
  show (stateAt m c t.val t.isLt).1 (win0_2.xinj (grid0.coords t) y) = result m c (((cfg0.win 2).blk t).view.emb y)
  rw [out_last m c t (by omega) h7]
  show slabTotal (stateAt m c t.val t.isLt).2 ((win0_2.xinj (grid0.coords t) y) 1) = _
  refine (slab_total_eq m c t (⟨t.val / 8, hg⟩ : Fin 2) (by show t.val = 8 * (t.val / 8) + 7; omega) _).trans ?_
  show coreSum (inp0 m c) (inp1 m c) (⟨t.val / 8, hg⟩ : Fin 2) ((win0_2.xinj (grid0.coords t) y) 1)
    = coreSum (inp0 m c) (inp1 m c) ((((cfg0.win 2).blk t).view.emb y) 0) ((((cfg0.win 2).blk t).view.emb y) 1)
  refine congrArg₂ (coreSum (inp0 m c) (inp1 m c)) (Fin.ext ?_) (Fin.ext ?_)
  · show t.val / 8 = win0_2.index t 0 * 1 + 1 * (y 0).val
    rw [(idx2 t).1]; omega
  · show (y 1).val = win0_2.index t 1 * 3 + 1 * (y 1).val
    rw [(idx2 t).2.1]; omega

/-- Every entry of the result lies in the block its core's last step writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 2 := (i 0).isLt
  have h1 : (i 1 : Nat) < 3 := (i 1).isLt
  have h2 : (i 2 : Nat) < 8 := (i 2).isLt
  have h3 : (i 3 : Nat) < 128 := (i 3).isLt
  obtain ⟨t, ht⟩ : ∃ t : Fin cfg0.N, t.val = 8 * (i 0 : Nat) + 7 :=
    ⟨⟨8 * (i 0 : Nat) + 7, by rw [N16]; omega⟩, rfl⟩
  have e := idx2 t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [e.1]; omega
  | ⟨1, _⟩ =>
    show win0_2.index t 1 * 3 ≤ (i 1 : Nat) ∧ (i 1 : Nat) < win0_2.index t 1 * 3 + 3
    rw [e.2.1]; omega
  | ⟨2, _⟩ =>
    show win0_2.index t 2 * 8 ≤ (i 2 : Nat) ∧ (i 2 : Nat) < win0_2.index t 2 * 8 + 8
    rw [e.2.2.1]; omega
  | ⟨3, _⟩ =>
    show win0_2.index t 3 * 128 ≤ (i 3 : Nat) ∧ (i 3 : Nat) < win0_2.index t 3 * 128 + 128
    rw [e.2.2.2]; omega

/-- So the region's result ends as the array of partial sums. -/
theorem final (c : Dev nD) : (dats m 0 c).arrAt 2 cfg0.N = result m c :=
  (dats m 0 c).arrAt_eq_of_cover 2 (result m c) (flushed_eq m c) (cover c)

/-- The final buffer after the host operations that follow the region is their one function of the region's
    result as the pipeline left it. -/
theorem afterTail_eq (c : Dev nD) :
    Pipeline.afterTail₀ cfgs (dats m) 0 (V0 m) [hostOps1] c main_v15
      = Cert.ReferenceIdeal.RefValue.tailOf (F := Ideal)
          (Pipeline.withArrays (cfgs 0).spec c (V0 m c) (fun w => (dats m 0 c).arrAt w (cfgs 0).N) (Proc.devRef .tc main_v0)) := by
  unfold Pipeline.afterTail₀
  show StableHlo.after hostOps1 _ (Proc.devRef .tc main_v15) = _
  after_results
  rfl

/-- At the compiled mesh, from any memory with zero counters: every weakly fair execution of the kernel program
    terminates, its final buffer holding the common last lines' function of the array of partial sums of its two
    inputs, and the inputs unchanged. -/
theorem run : θ_run (defs (F := Ideal)) (onTc (τ := τ) (main (F := Ideal))) ⟨m, fun _ => 0, ρ⟩ (fun r => ∀ c : Dev nD,
      r.2.mem ((c.tc : Thread nD τ).loc main_v15)
        = Cert.ReferenceIdeal.RefValue.tail (Cert.Nmse.partials (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v15 (Pipeline.mem_restRefs_of main_v15 (by decide) (by decide))).trans
        ((afterTail_eq m c).trans (congrArg (Cert.ReferenceIdeal.RefValue.tailOf (F := Ideal))
          ((Pipeline.withArrays_arr spec0 launch0.win.arr_inj c _ _ 2).trans (final m c)))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The normalized mean-squared-error loss computed two ways, equal over the extended reals.

  Both programs take a prediction and a target, f32[2048, 4096], and return
      ( Σ (p − t)² · 2⁻²³ ) / ( Σ t² · 2⁻²³ − ( Σ t · 2⁻²³ )² ),
  the sums over all 2²³ elements, each split over two cores. The kernel streams the arrays in their own layout:
  core `c` takes rows 1024 c … 1024 c + 1023 in eight tiles of 128 rows, folds each tile over its sixteen row groups
  into [8, 4096] partial sums of the three quantities, keeps three running sums in scratch, and at its last step
  reduces each to one number. The reference first flattens the arrays to a [65536, 128] slab, takes sixteen blocks
  of 2048 slab rows per core, keeps three [2048, 128] running sums, and reduces them at its last step. A core's
  elements are the same set either way, and a finite sum of extended reals does not depend on order or grouping,
  so both leave the same [2, 3, 8, 128] array of partial sums; the nineteen host operations that follow are the same
  in both programs. No finiteness of the inputs is used.

  The frames: the reference's is the generated one; the kernel's two (word level and idealized) are proved from the
  body's three cases — a core's first step, a middle step, its last step — with the scratch carried between grid
  points at the contents the previous point left. The ideal pass rewrote nothing, so `preserves` is trivial.
-/
import proofs.«181647_g2000509514383055_pallasbulk_1306_5_alg».proof.Defs
import proofs.«181647_g2000509514383055_pallasbulk_1306_5_alg».proof.Proof.Gen.Kernel
import proofs.«181647_g2000509514383055_pallasbulk_1306_5_alg».proof.Proof.Gen.KernelIdeal
import proofs.«181647_g2000509514383055_pallasbulk_1306_5_alg».proof.Proof.Gen.ReferenceIdeal
import proofs.«181647_g2000509514383055_pallasbulk_1306_5_alg».proof.Proof.Gen.ReferenceIdeal.Frame
import proofs.«181647_g2000509514383055_pallasbulk_1306_5_alg».proof.Proof.Gen.Pre_finite_inputs
import proofs.«181647_g2000509514383055_pallasbulk_1306_5_alg».proof.Proof.KbFrame
import proofs.«181647_g2000509514383055_pallasbulk_1306_5_alg».proof.Proof.KiFinal
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Body.frame m ρ
/-- So does its idealization, -/
theorem frame_ki : Cert.frame_KernelIdeal := fun m ρ _ => Cert.KernelIdeal.Body.frame m ρ
/-- and the idealized reference. -/
theorem frame_ri : Cert.frame_ReferenceIdeal := fun m ρ _ => Cert.ReferenceIdeal.Gen.frame m ρ

/-- The idealization is the kernel's own text read over the extended reals. -/
theorem preserves : Cert.preserves_Kernel_KernelIdeal := trivial

/-- Both idealized programs end with the common last lines' function of the array of partial sums of the same two
    arguments. -/
theorem algebraic : Cert.algebraic_KernelIdeal_ReferenceIdeal := by
  intro m ρ m' ρ' _ hagree
  refine ⟨fun c => Cert.ReferenceIdeal.RefValue.tail (Cert.Nmse.partials
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KValue.run m ρ, ?_⟩
  refine (θ_run Cert.ReferenceIdeal.defs _ _).mono (fun _ h c => ⟨(h c).1.trans ?_, (h c).2.1, (h c).2.2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
